-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S8192x8192 : Shape := ⟨2, ![8192, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S1024x1024 .f32) (main_arg5 : FVec F S8192x8192 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  main_v28

def fn {F : FTy → Type} [FloatOps F] (main_arg0 : FVec F S8192x1024 .f32) (main_arg1 : FVec F S1024x1024 .f32) (main_arg2 : FVec F S1024x1024 .f32) (main_arg3 : FVec F S1024x1024 .f32) (main_arg4 : FVec F S1024x1024 .f32) (main_arg5 : FVec F S8192x8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8192x1024 : Shape := ⟨2, ![8192, 1024]⟩
abbrev S1024x1024 : Shape := ⟨2, ![1024, 1024]⟩
abbrev S8192x8192 : Shape := ⟨2, ![8192, 8192]⟩
abbrev S1024x1 : Shape := ⟨2, ![1024, 1]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x8192, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_26 : BitVec 32 := 0#32
  let v48 : BitVec 1 := Scalar.cmpi .ne v47 c0_i32_26
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .bf16 = 32 ∨ (Rect.block (s := S8192x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x1024.size a
  hwx1_5 : ∀ i : grid1.Coords, EltTy.bits .f32 = 32 ∨ (Rect.block (s := S8192x1024) S1024x1024.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S8192x8192 : Shape := ⟨2, ![8192, 8192]⟩
abbrev S_ : Shape := ⟨0, ![]⟩
abbrev S1024x8192 : Shape := ⟨2, ![1024, 8192]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x8192, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S1024x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x1024, .f32⟩
  | .hbm, ⟨41, _⟩ => ⟨S1024x1024, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S_S8192x1024 : S_.BroadcastsInDim S8192x1024 (![] : Fin 0 → Fin S8192x1024.rank)
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.FrameQkvB.lean ====
import proofs.«155470_j14800457302355_2_alg».proof.Proof.Gen.Kernel.Launch
import proofs.«155470_j14800457302355_2_alg».proof.Proof.Gen.Kernel.Skeleton
import proofs.«155470_j14800457302355_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The projection region (the first kernel launch) at contents V of the core's buffers when the region is entered.

  Its grid has 8 points; point t stages rows 1024 t .. 1024 t + 1023 of the input x and the three weight matrices whole,
  and writes three output blocks: each is one matrix product of the x block with a weight matrix, contracted over the
  feature axis (the first one also scaled). The body stores each output block whole, so what a staging buffer holds
  after the body is the stored payload, a function of the input blocks alone.
-/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body uses: the whole 1024 x 1024 buffer. -/
abbrev rq : Rect S1024x1024 := Rect.unit (s := S1024x1024) ![0, 0] S1024x1024.size inb_S1024x1024_S1024x1024_0_0

/-- What the body leaves in the three output buffers, from the x block and a weight block. -/
def out0_4 (x0 : Vec F S1024x1024 .f32) (x1 : Vec F S1024x1024 .bf16) : Vec F S1024x1024 .bf16 :=
  View.canon [⟨rq, k0_pay2 (View.ld x0 rq) (View.ld x1 rq)⟩]
def out0_5 (x0 : Vec F S1024x1024 .f32) (x2 : Vec F S1024x1024 .bf16) : Vec F S1024x1024 .bf16 :=
  View.canon [⟨rq, k0_pay3 (View.ld x0 rq) (View.ld x2 rq)⟩]
def out0_6 (x0 : Vec F S1024x1024 .f32) (x3 : Vec F S1024x1024 .bf16) : Vec F S1024x1024 .bf16 :=
  View.canon [⟨rq, k0_pay4 (View.ld x0 rq) (View.ld x3 rq)⟩]

/-- One whole-buffer store covers the buffer. -/
theorem coverq (p0 : Vec F S1024x1024 .bf16) (y : S1024x1024.Idx) :
    ∃ pc ∈ ([⟨rq, p0⟩] : List (View.Piece (Elt F) S1024x1024 .bf16)), y ∈ pc.1.set :=
  View.cover_of_tiled [⟨rq, p0⟩] S1024x1024.size (by rfl) y

set_option maxHeartbeats 1000000 in
/-- The body on whole staging buffers: the inputs' contents stay, each output's buffer ends at its payload. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 : Vec F S1024x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverq _)
  isplitl [H5]
  · iexists _; isplitr
    swap; · iexact H5
    ipureintro
    exact View.read_writes_eq_canon _ _ _ (coverq _)
  iexists _; isplitr
  swap; · iexact H6
  ipureintro
  exact View.read_writes_eq_canon _ _ _ (coverq _)

/-- The region's proof data: the arrays as found; after the body each input buffer at its block and each output buffer at its
    payload of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.AttnRunsB.lean ====
import proofs.«155470_j14800457302355_2_alg».proof.Proof.Gen.Kernel.Launch
import proofs.«155470_j14800457302355_2_alg».proof.Proof.Gen.Kernel.Skeleton
import proofs.«155470_j14800457302355_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The attention region (the second kernel launch) at contents V of the core's buffers when the region is entered: what its
  body's three cases share.

  The grid is 8 x 8: point (q, kv) stages query block q, key block kv, value block kv, the (q, kv) block of the noise array and the
  output weights whole. Three scratch buffers carry a running row maximum, a running denominator and a running numerator from one
  point to the next along kv; they are reset where kv = 0, and where kv = 7 the numerator is divided by the denominator,
  multiplied with the output weights and stored into the output block, which is written back there and nowhere else.
-/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The reset's condition (kv = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points that are 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- The epilogue's condition (kv = 7). -/
abbrev cond1_1 (i : grid1.Coords) : Prop := k1_cond2 i = 1#1
/-- It holds at the points that are 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from kv = 7 the output window is idle and not written back; at kv = 7 it is live. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-- One staging buffer of the output window, through which its contents are stated. -/
abbrev VO1_5 : View sig .tc .vmem S1024x1024 .f32 := (Memref.whole cc1_stg5_0 : Memref sig .tc .vmem S1024x1024 .f32).view
/-- Each window's current staging memref at point t, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The scratch operands: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- A scoped buffer held whole at some contents. -/
abbrev freeBuf (c : Dev nD) (b : Ref sig .tc) : sProp 𝕄 :=
  iprop(∃ f : Buf (Elt F) ((c : Thread nD τ).loc b), ((c : Thread nD τ).loc b) ↦{fullShare} f)

/-- The first region's staging buffers, which this region never touches. -/
abbrev otherStaging (c : Dev nD) (tl : sProp 𝕄) : sProp 𝕄 :=
  iprop(freeBuf (F := F) c cc0_stg0_0 ∗ freeBuf (F := F) c cc0_stg0_1 ∗ freeBuf (F := F) c cc0_stg1_0 ∗ freeBuf (F := F) c cc0_stg2_0 ∗ freeBuf (F := F) c cc0_stg3_0
    ∗ freeBuf (F := F) c cc0_stg4_0 ∗ freeBuf (F := F) c cc0_stg4_1 ∗ freeBuf (F := F) c cc0_stg5_0 ∗ freeBuf (F := F) c cc0_stg5_1 ∗ freeBuf (F := F) c cc0_stg6_0
    ∗ freeBuf (F := F) c cc0_stg6_1 ∗ tl)

/-- What the launch hands the region: the other region's staging buffers and the three scratch buffers at some contents, and the
    generator register at some state. -/
theorem PhiA1_eq (c : Dev nD) :
    (Pipeline.ΦA spec1 c : sProp 𝕄)
      = iprop(otherStaging (F := F) c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Frm

end
-- ==== Proof.AttnRunAB.lean ====
import proofs.«155470_j14800457302355_2_alg».proof.Proof.Gen.Kernel.Launch
import proofs.«155470_j14800457302355_2_alg».proof.Proof.Gen.Kernel.Skeleton
import proofs.«155470_j14800457302355_2_alg».proof.Proof.Gen.Kernel.Points
import proofs.«155470_j14800457302355_2_alg».proof.Proof.AttnRunsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's run in the reset case (kv = 0): the scratch buffers are handed over at any contents. The lists are the stores each buffer ends with, last first, found when the run hands the
    buffers to the continuation. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) :
    Σ' (L5 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Frm

end
-- ==== Proof.AttnRunBB.lean ====
import proofs.«155470_j14800457302355_2_alg».proof.Proof.Gen.Kernel.Launch
import proofs.«155470_j14800457302355_2_alg».proof.Proof.Gen.Kernel.Skeleton
import proofs.«155470_j14800457302355_2_alg».proof.Proof.Gen.Kernel.Points
import proofs.«155470_j14800457302355_2_alg».proof.Proof.AttnRunAB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's run in the middle case (0 < kv < 7): the scratch buffers are handed over at what the point before left. The lists are the stores each buffer ends with, last first, found when the run hands the
    buffers to the continuation. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    Σ' (L5 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Frm

end
-- ==== Proof.AttnRunCB.lean ====
import proofs.«155470_j14800457302355_2_alg».proof.Proof.Gen.Kernel.Launch
import proofs.«155470_j14800457302355_2_alg».proof.Proof.Gen.Kernel.Skeleton
import proofs.«155470_j14800457302355_2_alg».proof.Proof.Gen.Kernel.Points
import proofs.«155470_j14800457302355_2_alg».proof.Proof.AttnRunBB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's run in the epilogue case (kv = 7): the scratch buffers are handed over at what the point before left, and the output block is stored. The lists are the stores each buffer ends with, last first, found when the run hands the
    buffers to the continuation. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    Σ' (L5 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Frm

end
-- ==== Proof.FrameAttnB.lean ====
import proofs.«155470_j14800457302355_2_alg».proof.Proof.Gen.Kernel.Launch
import proofs.«155470_j14800457302355_2_alg».proof.Proof.Gen.Kernel.Skeleton
import proofs.«155470_j14800457302355_2_alg».proof.Proof.Gen.Kernel.Points
import proofs.«155470_j14800457302355_2_alg».proof.Proof.AttnRunCB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's buffer: its stores read back (none: a placeholder nothing consults, the window being idle there). -/
def out1_A_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) : Vec F S1024x1024 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3 x4).1)

/-- Case A's stores into scratch buffer 0 cover it. -/
theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1024x1.size (by sl_kernel_rfl) y

/-- What case A leaves in scratch buffer 0. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).2.1)

/-- Case A's stores into scratch buffer 1 cover it. -/
theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1024x1.size (by sl_kernel_rfl) y

/-- What case A leaves in scratch buffer 1. -/
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.2.1)

/-- Case A's stores into scratch buffer 2 cover it. -/
theorem scover1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) (y : S1024x1024.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.2.1 S1024x1024.size (by sl_kernel_rfl) y

/-- What case A leaves in scratch buffer 2. -/
def sout1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.2.1)

/-- What case B leaves in the output block's buffer: its stores read back (none: a placeholder nothing consults, the window being idle there). -/
def out1_B_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1024 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0 xs1 xs2).1)

/-- Case B's stores into scratch buffer 0 cover it. -/
theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S1024x1.size (by sl_kernel_rfl) y

/-- What case B leaves in scratch buffer 0. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)

/-- Case B's stores into scratch buffer 1 cover it. -/
theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S1024x1.size (by sl_kernel_rfl) y

/-- What case B leaves in scratch buffer 1. -/
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)

/-- Case B's stores into scratch buffer 2 cover it. -/
theorem scover1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1 S1024x1024.size (by sl_kernel_rfl) y

/-- What case B leaves in scratch buffer 2. -/
def sout1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1)

/-- The epilogue's one store covers the output block. -/
theorem cover1_C_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).1 S1024x1024.size (by sl_kernel_rfl) y

/-- What case C leaves in the output block's buffer: its stores read back. -/
def out1_C_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1024 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1)

/-- Case C's stores into scratch buffer 0 cover it. -/
theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.1 S1024x1.size (by sl_kernel_rfl) y

/-- What case C leaves in scratch buffer 0. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1)

/-- Case C's stores into scratch buffer 1 cover it. -/
theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.1 S1024x1.size (by sl_kernel_rfl) y

/-- What case C leaves in scratch buffer 1. -/
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1)

/-- Case C's stores into scratch buffer 2 cover it. -/
theorem scover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1 S1024x1024.size (by sl_kernel_rfl) y

/-- What case C leaves in scratch buffer 2. -/
def sout1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1)

/-- Case A at point t: what it leaves in the output buffer and the three scratch buffers. -/
def at1_A (c : Dev nD) (t : Fin cfg1.N) (h0 : t.val % 8 = 0) (h1 : ¬t.val % 8 = 7) : Vec F S1024x1024 .f32 × Vec F S1024x1 .f32 × Vec F S1024x1 .f32 × Vec F S1024x1024 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- Case B at point t: what it leaves in the output buffer and the three scratch buffers, from what the point before left in the scratch buffers. -/
def at1_B (c : Dev nD) (t : Fin cfg1.N) (h0 : ¬t.val % 8 = 0) (h1 : ¬t.val % 8 = 7) (p : Vec F S1024x1 .f32 × Vec F S1024x1 .f32 × Vec F S1024x1024 .f32) : Vec F S1024x1024 .f32 × Vec F S1024x1 .f32 × Vec F S1024x1 .f32 × Vec F S1024x1024 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2)

/-- Case C at point t: what it leaves in the output buffer and the three scratch buffers, from what the point before left in the scratch buffers. -/
def at1_C (c : Dev nD) (t : Fin cfg1.N) (h0 : ¬t.val % 8 = 0) (h1 : t.val % 8 = 7) (p : Vec F S1024x1 .f32 × Vec F S1024x1 .f32 × Vec F S1024x1024 .f32) : Vec F S1024x1024 .f32 × Vec F S1024x1 .f32 × Vec F S1024x1 .f32 × Vec F S1024x1024 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2)

/-! ## What the buffers hold after each point -/

/-- What the output buffer and the three scratch buffers hold after the body at position n: the case the position selects,
    the carried scratch contents taken from position n - 1. -/
def outsAt1 (c : Dev nD) : (n : ℕ) → n < cfg1.N → Vec F S1024x1024 .f32 × Vec F S1024x1 .f32 × Vec F S1024x1 .f32 × Vec F S1024x1024 .f32
  | 0, hn => at1_A V c ⟨0, hn⟩ (Nat.zero_mod _) (show ¬ (0 % 8 = 7) by decide)
  | n + 1, hn =>
    if h0 : (n + 1) % 8 = 0 then
      if h1 : (n + 1) % 8 = 7 then
        False.elim (by omega)
      else
        at1_A V c ⟨n + 1, hn⟩ h0 h1
    else
      if h1 : (n + 1) % 8 = 7 then
        at1_C V c ⟨n + 1, hn⟩ h0 h1 (outsAt1 c n (Nat.lt_of_succ_lt hn)).2
      else
        at1_B V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = at1_A V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = at1_B V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = at1_C V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The first region's staging buffers, each whole at some contents. -/
def others (c : Dev nD) : sProp 𝕄 :=
  iprop(freeBuf (F := F) c cc0_stg0_0 ∗ freeBuf (F := F) c cc0_stg0_1 ∗ freeBuf (F := F) c cc0_stg1_0 ∗ freeBuf (F := F) c cc0_stg2_0 ∗ freeBuf (F := F) c cc0_stg3_0
    ∗ freeBuf (F := F) c cc0_stg4_0 ∗ freeBuf (F := F) c cc0_stg4_1 ∗ freeBuf (F := F) c cc0_stg5_0 ∗ freeBuf (F := F) c cc0_stg5_1 ∗ freeBuf (F := F) c cc0_stg6_0
    ∗ freeBuf (F := F) c cc0_stg6_1)

/-- What the launch hands the region, the scratch buffers first. -/
theorem PhiA1_eq' (c : Dev nD) :
    (Pipeline.ΦA spec1 c : sProp 𝕄)
      = iprop(((∃ d, owns (c : Thread nD τ) scM1_0 fullShare d) ∗ (∃ d, owns (c : Thread nD τ) scM1_1 fullShare d)
          ∗ (∃ d, owns (c : Thread nD τ) scM1_2 fullShare d) ∗ others (F := F) c) ∗ (∃ r, prngReg c r)) := by
  rw [PhiA1_eq]
  unfold otherStaging others
  have h₁ : iprop((freeBuf (F := F) c cc0_stg0_0 ∗ freeBuf (F := F) c cc0_stg0_1 ∗ freeBuf (F := F) c cc0_stg1_0 ∗ freeBuf (F := F) c cc0_stg2_0 ∗ freeBuf (F := F) c cc0_stg3_0 ∗ freeBuf (F := F) c cc0_stg4_0 ∗ freeBuf (F := F) c cc0_stg4_1 ∗ freeBuf (F := F) c cc0_stg5_0 ∗ freeBuf (F := F) c cc0_stg5_1 ∗ freeBuf (F := F) c cc0_stg6_0 ∗ freeBuf (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r))
      ⊢ (iprop(((∃ d, owns (c : Thread nD τ) scM1_0 fullShare d) ∗ (∃ d, owns (c : Thread nD τ) scM1_1 fullShare d) ∗ (∃ d, owns (c : Thread nD τ) scM1_2 fullShare d) ∗ freeBuf (F := F) c cc0_stg0_0 ∗ freeBuf (F := F) c cc0_stg0_1 ∗ freeBuf (F := F) c cc0_stg1_0 ∗ freeBuf (F := F) c cc0_stg2_0 ∗ freeBuf (F := F) c cc0_stg3_0 ∗ freeBuf (F := F) c cc0_stg4_0 ∗ freeBuf (F := F) c cc0_stg4_1 ∗ freeBuf (F := F) c cc0_stg5_0 ∗ freeBuf (F := F) c cc0_stg5_1 ∗ freeBuf (F := F) c cc0_stg6_0 ∗ freeBuf (F := F) c cc0_stg6_1) ∗ (∃ r, prngReg c r)) : sProp 𝕄) := by
    iintro ⟨⟨R1, R2, R3, R4, R5, R6, R7, R8, R9, R10, R11, S0, S1, S2⟩, Hg⟩
    isplitr [Hg]
    swap; · iexact Hg
    isplitl [S0]; · iexact S0
    isplitl [S1]; · iexact S1
    isplitl [S2]; · iexact S2
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  have h₂ : iprop(((∃ d, owns (c : Thread nD τ) scM1_0 fullShare d) ∗ (∃ d, owns (c : Thread nD τ) scM1_1 fullShare d) ∗ (∃ d, owns (c : Thread nD τ) scM1_2 fullShare d) ∗ freeBuf (F := F) c cc0_stg0_0 ∗ freeBuf (F := F) c cc0_stg0_1 ∗ freeBuf (F := F) c cc0_stg1_0 ∗ freeBuf (F := F) c cc0_stg2_0 ∗ freeBuf (F := F) c cc0_stg3_0 ∗ freeBuf (F := F) c cc0_stg4_0 ∗ freeBuf (F := F) c cc0_stg4_1 ∗ freeBuf (F := F) c cc0_stg5_0 ∗ freeBuf (F := F) c cc0_stg5_1 ∗ freeBuf (F := F) c cc0_stg6_0 ∗ freeBuf (F := F) c cc0_stg6_1) ∗ (∃ r, prngReg c r))
      ⊢ (iprop((freeBuf (F := F) c cc0_stg0_0 ∗ freeBuf (F := F) c cc0_stg0_1 ∗ freeBuf (F := F) c cc0_stg1_0 ∗ freeBuf (F := F) c cc0_stg2_0 ∗ freeBuf (F := F) c cc0_stg3_0 ∗ freeBuf (F := F) c cc0_stg4_0 ∗ freeBuf (F := F) c cc0_stg4_1 ∗ freeBuf (F := F) c cc0_stg5_0 ∗ freeBuf (F := F) c cc0_stg5_1 ∗ freeBuf (F := F) c cc0_stg6_0 ∗ freeBuf (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) : sProp 𝕄) := by
    iintro ⟨⟨S0, S1, S2, R1, R2, R3, R4, R5, R6, R7, R8, R9, R10, R11⟩, Hg⟩
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [S0]; · iexact S0
    isplitl [S1]; · iexact S1
    iexact S2
  exact BI.equiv_iff.mp ⟨h₁, h₂⟩

/-- The region invariant before position n: before the first point what the launch hands over; afterwards the three scratch
    buffers at what the point before left in them, the rest as before. -/
def PhiS (c : Dev nD) : (n : ℕ) → n ≤ cfg1.N → sProp 𝕄
  | 0, _ => Pipeline.ΦA spec1 c
  | n + 1, hn => iprop((owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2) ∗ others (F := F) c) ∗ (∃ r, prngReg c r)) := rfl

theorem PhiS_pos (c : Dev nD) (n : ℕ) (h : n ≤ cfg1.N) (hz : n ≠ 0) :
    PhiS V c n h = iprop((owns (c : Thread nD τ) scM1_0 fullShare ((outsAt1 V c (n - 1) (by omega)).2.1) ∗ owns (c : Thread nD τ) scM1_1 fullShare ((outsAt1 V c (n - 1) (by omega)).2.2.1)
      ∗ owns (c : Thread nD τ) scM1_2 fullShare ((outsAt1 V c (n - 1) (by omega)).2.2.2) ∗ others (F := F) c) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' buffers hold their blocks; the point's position modulo 8 says which case it is in;
    the invariant hands the body the scratch buffers at what the point before left (at anything before the first point)
    and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold at1_A sout1_A_0 sout1_A_1 sout1_A_2; (try dsimp only)
      by_cases hz : t.val = 0
      · rw [PhiS_castSucc V c t, PhiS_zero V c _ _ hz, PhiA1_eq']
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 HR Hg]
        · isplitr [Hg]
          swap; · iexact Hg
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 HR Hg]
        · isplitr [Hg]
          swap; · iexact Hg
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold at1_C out1_C_5 sout1_C_0 sout1_C_1 sout1_C_2; (try dsimp only)
      by_cases hz : t.val = 0
      · exfalso; omega
      · rw [PhiS_castSucc V c t, PhiS_pos V c _ _ hz]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HS0 HS1 HS2 HR Hg]
        · isplitr [Hg]
          swap; · iexact Hg
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold at1_B sout1_B_0 sout1_B_1 sout1_B_2; (try dsimp only)
      by_cases hz : t.val = 0
      · exfalso; omega
      · rw [PhiS_castSucc V c t, PhiS_pos V c _ _ hz]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 HR Hg]
        · isplitr [Hg]
          swap; · iexact Hg
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back what the launch handed over: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq']
  iintro ⟨⟨HS0, HS1, HS2, HR⟩, Hg⟩
  isplitr [Hg]
  swap; · iexact Hg
  isplitl [HS0]; · iexists _; iexact HS0
  isplitl [HS1]; · iexists _; iexact HS1
  isplitl [HS2]; · iexists _; iexact HS2
  iexact HR

theorem hout1 (c : Dev nD) : (dat1 V c).Φ (Fin.last cfg1.N) ⊢ Pipeline.ΦA spec1 c :=
  Phi_out1 V c _ (by rw [Fin.val_last]; have : cfg1.N = 64 := N_1; omega)

end Cert.Kernel.Frm

end
-- ==== Proof.FrameRunB.lean ====
import proofs.«155470_j14800457302355_2_alg».proof.Proof.Gen.Kernel.Launch
import proofs.«155470_j14800457302355_2_alg».proof.Proof.Gen.Kernel.Skeleton
import proofs.«155470_j14800457302355_2_alg».proof.Proof.Gen.Kernel.Points
import proofs.«155470_j14800457302355_2_alg».proof.Proof.FrameQkvB
import proofs.«155470_j14800457302355_2_alg».proof.Proof.FrameAttnB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The whole run: the four format changes of the weights on the host, the projection region, the attention region.

  The buffer contents at each boundary are a fold from the launch memory: after the host operations; after the projection
  region, whose three output arrays hold what its write-backs leave; after the attention region, whose output array holds what
  its write-backs leave. Every weakly fair execution terminates with every unscoped buffer at the last boundary's contents; no
  host operation and no region writes an argument array.
-/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host operations (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit (it is entered straight from the projection region's exit). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- Argument 0 reaches the end as launched: no host operation writes it and no region writes it back. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 reaches the end as launched: no host operation writes it and no region writes it back. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 reaches the end as launched: no host operation writes it and no region writes it back. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 reaches the end as launched: no host operation writes it and no region writes it back. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 reaches the end as launched: no host operation writes it and no region writes it back. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 reaches the end as launched: no host operation writes it and no region writes it back. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 3).trans (((dat1 (V2 m ρ) c).arrAt_in 3 rfl _).trans (A_eq1 (V2 m ρ) c 3))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state: entered from every unscoped buffer at the contents before it, left at the contents after
    it. Its arrays are split out of the unscoped buffers and put back at the exit contents; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays are split out of the unscoped buffers and put back at the exit contents; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from memory m with zero counters terminates, nothing faulting, and every final
    state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.Kernel.Frm

end
-- ==== Proof.FrameQkvI.lean ====
import proofs.«155470_j14800457302355_2_alg».proof.Proof.Gen.KernelIdeal.Launch
import proofs.«155470_j14800457302355_2_alg».proof.Proof.Gen.KernelIdeal.Skeleton
import proofs.«155470_j14800457302355_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The projection region (the first kernel launch) at contents V of the core's buffers when the region is entered.

  Its grid has 8 points; point t stages rows 1024 t .. 1024 t + 1023 of the input x and the three weight matrices whole,
  and writes three output blocks: each is one matrix product of the x block with a weight matrix, contracted over the
  feature axis (the first one also scaled). The body stores each output block whole, so what a staging buffer holds
  after the body is the stored payload, a function of the input blocks alone.
-/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body uses: the whole 1024 x 1024 buffer. -/
abbrev rq : Rect S1024x1024 := Rect.unit (s := S1024x1024) ![0, 0] S1024x1024.size inb_S1024x1024_S1024x1024_0_0

/-- What the body leaves in the three output buffers, from the x block and a weight block. -/
def out0_4 (x0 : Vec F S1024x1024 .f32) (x1 : Vec F S1024x1024 .bf16) : Vec F S1024x1024 .bf16 :=
  View.canon [⟨rq, k0_pay2 (View.ld x0 rq) (View.ld x1 rq)⟩]
def out0_5 (x0 : Vec F S1024x1024 .f32) (x2 : Vec F S1024x1024 .bf16) : Vec F S1024x1024 .bf16 :=
  View.canon [⟨rq, k0_pay3 (View.ld x0 rq) (View.ld x2 rq)⟩]
def out0_6 (x0 : Vec F S1024x1024 .f32) (x3 : Vec F S1024x1024 .bf16) : Vec F S1024x1024 .bf16 :=
  View.canon [⟨rq, k0_pay4 (View.ld x0 rq) (View.ld x3 rq)⟩]

/-- One whole-buffer store covers the buffer. -/
theorem coverq (p0 : Vec F S1024x1024 .bf16) (y : S1024x1024.Idx) :
    ∃ pc ∈ ([⟨rq, p0⟩] : List (View.Piece (Elt F) S1024x1024 .bf16)), y ∈ pc.1.set :=
  View.cover_of_tiled [⟨rq, p0⟩] S1024x1024.size (by rfl) y

set_option maxHeartbeats 1000000 in
/-- The body on whole staging buffers: the inputs' contents stay, each output's buffer ends at its payload. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 : Vec F S1024x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverq _)
  isplitl [H5]
  · iexists _; isplitr
    swap; · iexact H5
    ipureintro
    exact View.read_writes_eq_canon _ _ _ (coverq _)
  iexists _; isplitr
  swap; · iexact H6
  ipureintro
  exact View.read_writes_eq_canon _ _ _ (coverq _)

/-- The region's proof data: the arrays as found; after the body each input buffer at its block and each output buffer at its
    payload of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.AttnRunsI.lean ====
import proofs.«155470_j14800457302355_2_alg».proof.Proof.Gen.KernelIdeal.Launch
import proofs.«155470_j14800457302355_2_alg».proof.Proof.Gen.KernelIdeal.Skeleton
import proofs.«155470_j14800457302355_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The attention region (the second kernel launch) at contents V of the core's buffers when the region is entered: what its
  body's three cases share.

  The grid is 8 x 8: point (q, kv) stages query block q, key block kv, value block kv, the (q, kv) block of the noise array and the
  output weights whole. Three scratch buffers carry a running row maximum, a running denominator and a running numerator from one
  point to the next along kv; they are reset where kv = 0, and where kv = 7 the numerator is divided by the denominator,
  multiplied with the output weights and stored into the output block, which is written back there and nowhere else.
-/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The reset's condition (kv = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points that are 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- The epilogue's condition (kv = 7). -/
abbrev cond1_1 (i : grid1.Coords) : Prop := k1_cond2 i = 1#1
/-- It holds at the points that are 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from kv = 7 the output window is idle and not written back; at kv = 7 it is live. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-- One staging buffer of the output window, through which its contents are stated. -/
abbrev VO1_5 : View sig .tc .vmem S1024x1024 .f32 := (Memref.whole cc1_stg5_0 : Memref sig .tc .vmem S1024x1024 .f32).view
/-- Each window's current staging memref at point t, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The scratch operands: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- A scoped buffer held whole at some contents. -/
abbrev freeBuf (c : Dev nD) (b : Ref sig .tc) : sProp 𝕄 :=
  iprop(∃ f : Buf (Elt F) ((c : Thread nD τ).loc b), ((c : Thread nD τ).loc b) ↦{fullShare} f)

/-- The first region's staging buffers, which this region never touches. -/
abbrev otherStaging (c : Dev nD) (tl : sProp 𝕄) : sProp 𝕄 :=
  iprop(freeBuf (F := F) c cc0_stg0_0 ∗ freeBuf (F := F) c cc0_stg0_1 ∗ freeBuf (F := F) c cc0_stg1_0 ∗ freeBuf (F := F) c cc0_stg2_0 ∗ freeBuf (F := F) c cc0_stg3_0
    ∗ freeBuf (F := F) c cc0_stg4_0 ∗ freeBuf (F := F) c cc0_stg4_1 ∗ freeBuf (F := F) c cc0_stg5_0 ∗ freeBuf (F := F) c cc0_stg5_1 ∗ freeBuf (F := F) c cc0_stg6_0
    ∗ freeBuf (F := F) c cc0_stg6_1 ∗ tl)

/-- What the launch hands the region: the other region's staging buffers and the three scratch buffers at some contents, and the
    generator register at some state. -/
theorem PhiA1_eq (c : Dev nD) :
    (Pipeline.ΦA spec1 c : sProp 𝕄)
      = iprop(otherStaging (F := F) c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Frm

end
-- ==== Proof.AttnRunAI.lean ====
import proofs.«155470_j14800457302355_2_alg».proof.Proof.Gen.KernelIdeal.Launch
import proofs.«155470_j14800457302355_2_alg».proof.Proof.Gen.KernelIdeal.Skeleton
import proofs.«155470_j14800457302355_2_alg».proof.Proof.Gen.KernelIdeal.Points
import proofs.«155470_j14800457302355_2_alg».proof.Proof.AttnRunsI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's run in the reset case (kv = 0): the scratch buffers are handed over at any contents. The lists are the stores each buffer ends with, last first, found when the run hands the
    buffers to the continuation. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) :
    Σ' (L5 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Frm

end
-- ==== Proof.AttnRunBI.lean ====
import proofs.«155470_j14800457302355_2_alg».proof.Proof.Gen.KernelIdeal.Launch
import proofs.«155470_j14800457302355_2_alg».proof.Proof.Gen.KernelIdeal.Skeleton
import proofs.«155470_j14800457302355_2_alg».proof.Proof.Gen.KernelIdeal.Points
import proofs.«155470_j14800457302355_2_alg».proof.Proof.AttnRunAI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's run in the middle case (0 < kv < 7): the scratch buffers are handed over at what the point before left. The lists are the stores each buffer ends with, last first, found when the run hands the
    buffers to the continuation. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    Σ' (L5 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Frm

end
-- ==== Proof.AttnRunCI.lean ====
import proofs.«155470_j14800457302355_2_alg».proof.Proof.Gen.KernelIdeal.Launch
import proofs.«155470_j14800457302355_2_alg».proof.Proof.Gen.KernelIdeal.Skeleton
import proofs.«155470_j14800457302355_2_alg».proof.Proof.Gen.KernelIdeal.Points
import proofs.«155470_j14800457302355_2_alg».proof.Proof.AttnRunBI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's run in the epilogue case (kv = 7): the scratch buffers are handed over at what the point before left, and the output block is stored. The lists are the stores each buffer ends with, last first, found when the run hands the
    buffers to the continuation. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    Σ' (L5 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Frm

end
-- ==== Proof.FrameAttnI.lean ====
import proofs.«155470_j14800457302355_2_alg».proof.Proof.Gen.KernelIdeal.Launch
import proofs.«155470_j14800457302355_2_alg».proof.Proof.Gen.KernelIdeal.Skeleton
import proofs.«155470_j14800457302355_2_alg».proof.Proof.Gen.KernelIdeal.Points
import proofs.«155470_j14800457302355_2_alg».proof.Proof.AttnRunCI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's buffer: its stores read back (none: a placeholder nothing consults, the window being idle there). -/
def out1_A_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) : Vec F S1024x1024 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3 x4).1)

/-- Case A's stores into scratch buffer 0 cover it. -/
theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1024x1.size (by sl_kernel_rfl) y

/-- What case A leaves in scratch buffer 0. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).2.1)

/-- Case A's stores into scratch buffer 1 cover it. -/
theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1024x1.size (by sl_kernel_rfl) y

/-- What case A leaves in scratch buffer 1. -/
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.2.1)

/-- Case A's stores into scratch buffer 2 cover it. -/
theorem scover1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) (y : S1024x1024.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.2.1 S1024x1024.size (by sl_kernel_rfl) y

/-- What case A leaves in scratch buffer 2. -/
def sout1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.2.1)

/-- What case B leaves in the output block's buffer: its stores read back (none: a placeholder nothing consults, the window being idle there). -/
def out1_B_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1024 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0 xs1 xs2).1)

/-- Case B's stores into scratch buffer 0 cover it. -/
theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S1024x1.size (by sl_kernel_rfl) y

/-- What case B leaves in scratch buffer 0. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)

/-- Case B's stores into scratch buffer 1 cover it. -/
theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S1024x1.size (by sl_kernel_rfl) y

/-- What case B leaves in scratch buffer 1. -/
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)

/-- Case B's stores into scratch buffer 2 cover it. -/
theorem scover1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1 S1024x1024.size (by sl_kernel_rfl) y

/-- What case B leaves in scratch buffer 2. -/
def sout1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1)

/-- The epilogue's one store covers the output block. -/
theorem cover1_C_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).1 S1024x1024.size (by sl_kernel_rfl) y

/-- What case C leaves in the output block's buffer: its stores read back. -/
def out1_C_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1024 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1)

/-- Case C's stores into scratch buffer 0 cover it. -/
theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.1 S1024x1.size (by sl_kernel_rfl) y

/-- What case C leaves in scratch buffer 0. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1)

/-- Case C's stores into scratch buffer 1 cover it. -/
theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.1 S1024x1.size (by sl_kernel_rfl) y

/-- What case C leaves in scratch buffer 1. -/
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1)

/-- Case C's stores into scratch buffer 2 cover it. -/
theorem scover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1 S1024x1024.size (by sl_kernel_rfl) y

/-- What case C leaves in scratch buffer 2. -/
def sout1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1)

/-- Case A at point t: what it leaves in the output buffer and the three scratch buffers. -/
def at1_A (c : Dev nD) (t : Fin cfg1.N) (h0 : t.val % 8 = 0) (h1 : ¬t.val % 8 = 7) : Vec F S1024x1024 .f32 × Vec F S1024x1 .f32 × Vec F S1024x1 .f32 × Vec F S1024x1024 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- Case B at point t: what it leaves in the output buffer and the three scratch buffers, from what the point before left in the scratch buffers. -/
def at1_B (c : Dev nD) (t : Fin cfg1.N) (h0 : ¬t.val % 8 = 0) (h1 : ¬t.val % 8 = 7) (p : Vec F S1024x1 .f32 × Vec F S1024x1 .f32 × Vec F S1024x1024 .f32) : Vec F S1024x1024 .f32 × Vec F S1024x1 .f32 × Vec F S1024x1 .f32 × Vec F S1024x1024 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.1 p.2.1 p.2.2)

/-- Case C at point t: what it leaves in the output buffer and the three scratch buffers, from what the point before left in the scratch buffers. -/
def at1_C (c : Dev nD) (t : Fin cfg1.N) (h0 : ¬t.val % 8 = 0) (h1 : t.val % 8 = 7) (p : Vec F S1024x1 .f32 × Vec F S1024x1 .f32 × Vec F S1024x1024 .f32) : Vec F S1024x1024 .f32 × Vec F S1024x1 .f32 × Vec F S1024x1 .f32 × Vec F S1024x1024 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.1 p.2.1 p.2.2)

/-! ## What the buffers hold after each point -/

/-- What the output buffer and the three scratch buffers hold after the body at position n: the case the position selects,
    the carried scratch contents taken from position n - 1. -/
def outsAt1 (c : Dev nD) : (n : ℕ) → n < cfg1.N → Vec F S1024x1024 .f32 × Vec F S1024x1 .f32 × Vec F S1024x1 .f32 × Vec F S1024x1024 .f32
  | 0, hn => at1_A V c ⟨0, hn⟩ (Nat.zero_mod _) (show ¬ (0 % 8 = 7) by decide)
  | n + 1, hn =>
    if h0 : (n + 1) % 8 = 0 then
      if h1 : (n + 1) % 8 = 7 then
        False.elim (by omega)
      else
        at1_A V c ⟨n + 1, hn⟩ h0 h1
    else
      if h1 : (n + 1) % 8 = 7 then
        at1_C V c ⟨n + 1, hn⟩ h0 h1 (outsAt1 c n (Nat.lt_of_succ_lt hn)).2
      else
        at1_B V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = at1_A V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = at1_B V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = at1_C V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The first region's staging buffers, each whole at some contents. -/
def others (c : Dev nD) : sProp 𝕄 :=
  iprop(freeBuf (F := F) c cc0_stg0_0 ∗ freeBuf (F := F) c cc0_stg0_1 ∗ freeBuf (F := F) c cc0_stg1_0 ∗ freeBuf (F := F) c cc0_stg2_0 ∗ freeBuf (F := F) c cc0_stg3_0
    ∗ freeBuf (F := F) c cc0_stg4_0 ∗ freeBuf (F := F) c cc0_stg4_1 ∗ freeBuf (F := F) c cc0_stg5_0 ∗ freeBuf (F := F) c cc0_stg5_1 ∗ freeBuf (F := F) c cc0_stg6_0
    ∗ freeBuf (F := F) c cc0_stg6_1)

/-- What the launch hands the region, the scratch buffers first. -/
theorem PhiA1_eq' (c : Dev nD) :
    (Pipeline.ΦA spec1 c : sProp 𝕄)
      = iprop(((∃ d, owns (c : Thread nD τ) scM1_0 fullShare d) ∗ (∃ d, owns (c : Thread nD τ) scM1_1 fullShare d)
          ∗ (∃ d, owns (c : Thread nD τ) scM1_2 fullShare d) ∗ others (F := F) c) ∗ (∃ r, prngReg c r)) := by
  rw [PhiA1_eq]
  unfold otherStaging others
  have h₁ : iprop((freeBuf (F := F) c cc0_stg0_0 ∗ freeBuf (F := F) c cc0_stg0_1 ∗ freeBuf (F := F) c cc0_stg1_0 ∗ freeBuf (F := F) c cc0_stg2_0 ∗ freeBuf (F := F) c cc0_stg3_0 ∗ freeBuf (F := F) c cc0_stg4_0 ∗ freeBuf (F := F) c cc0_stg4_1 ∗ freeBuf (F := F) c cc0_stg5_0 ∗ freeBuf (F := F) c cc0_stg5_1 ∗ freeBuf (F := F) c cc0_stg6_0 ∗ freeBuf (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r))
      ⊢ (iprop(((∃ d, owns (c : Thread nD τ) scM1_0 fullShare d) ∗ (∃ d, owns (c : Thread nD τ) scM1_1 fullShare d) ∗ (∃ d, owns (c : Thread nD τ) scM1_2 fullShare d) ∗ freeBuf (F := F) c cc0_stg0_0 ∗ freeBuf (F := F) c cc0_stg0_1 ∗ freeBuf (F := F) c cc0_stg1_0 ∗ freeBuf (F := F) c cc0_stg2_0 ∗ freeBuf (F := F) c cc0_stg3_0 ∗ freeBuf (F := F) c cc0_stg4_0 ∗ freeBuf (F := F) c cc0_stg4_1 ∗ freeBuf (F := F) c cc0_stg5_0 ∗ freeBuf (F := F) c cc0_stg5_1 ∗ freeBuf (F := F) c cc0_stg6_0 ∗ freeBuf (F := F) c cc0_stg6_1) ∗ (∃ r, prngReg c r)) : sProp 𝕄) := by
    iintro ⟨⟨R1, R2, R3, R4, R5, R6, R7, R8, R9, R10, R11, S0, S1, S2⟩, Hg⟩
    isplitr [Hg]
    swap; · iexact Hg
    isplitl [S0]; · iexact S0
    isplitl [S1]; · iexact S1
    isplitl [S2]; · iexact S2
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  have h₂ : iprop(((∃ d, owns (c : Thread nD τ) scM1_0 fullShare d) ∗ (∃ d, owns (c : Thread nD τ) scM1_1 fullShare d) ∗ (∃ d, owns (c : Thread nD τ) scM1_2 fullShare d) ∗ freeBuf (F := F) c cc0_stg0_0 ∗ freeBuf (F := F) c cc0_stg0_1 ∗ freeBuf (F := F) c cc0_stg1_0 ∗ freeBuf (F := F) c cc0_stg2_0 ∗ freeBuf (F := F) c cc0_stg3_0 ∗ freeBuf (F := F) c cc0_stg4_0 ∗ freeBuf (F := F) c cc0_stg4_1 ∗ freeBuf (F := F) c cc0_stg5_0 ∗ freeBuf (F := F) c cc0_stg5_1 ∗ freeBuf (F := F) c cc0_stg6_0 ∗ freeBuf (F := F) c cc0_stg6_1) ∗ (∃ r, prngReg c r))
      ⊢ (iprop((freeBuf (F := F) c cc0_stg0_0 ∗ freeBuf (F := F) c cc0_stg0_1 ∗ freeBuf (F := F) c cc0_stg1_0 ∗ freeBuf (F := F) c cc0_stg2_0 ∗ freeBuf (F := F) c cc0_stg3_0 ∗ freeBuf (F := F) c cc0_stg4_0 ∗ freeBuf (F := F) c cc0_stg4_1 ∗ freeBuf (F := F) c cc0_stg5_0 ∗ freeBuf (F := F) c cc0_stg5_1 ∗ freeBuf (F := F) c cc0_stg6_0 ∗ freeBuf (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) : sProp 𝕄) := by
    iintro ⟨⟨S0, S1, S2, R1, R2, R3, R4, R5, R6, R7, R8, R9, R10, R11⟩, Hg⟩
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [S0]; · iexact S0
    isplitl [S1]; · iexact S1
    iexact S2
  exact BI.equiv_iff.mp ⟨h₁, h₂⟩

/-- The region invariant before position n: before the first point what the launch hands over; afterwards the three scratch
    buffers at what the point before left in them, the rest as before. -/
def PhiS (c : Dev nD) : (n : ℕ) → n ≤ cfg1.N → sProp 𝕄
  | 0, _ => Pipeline.ΦA spec1 c
  | n + 1, hn => iprop((owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2) ∗ others (F := F) c) ∗ (∃ r, prngReg c r)) := rfl

theorem PhiS_pos (c : Dev nD) (n : ℕ) (h : n ≤ cfg1.N) (hz : n ≠ 0) :
    PhiS V c n h = iprop((owns (c : Thread nD τ) scM1_0 fullShare ((outsAt1 V c (n - 1) (by omega)).2.1) ∗ owns (c : Thread nD τ) scM1_1 fullShare ((outsAt1 V c (n - 1) (by omega)).2.2.1)
      ∗ owns (c : Thread nD τ) scM1_2 fullShare ((outsAt1 V c (n - 1) (by omega)).2.2.2) ∗ others (F := F) c) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' buffers hold their blocks; the point's position modulo 8 says which case it is in;
    the invariant hands the body the scratch buffers at what the point before left (at anything before the first point)
    and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold at1_A sout1_A_0 sout1_A_1 sout1_A_2; (try dsimp only)
      by_cases hz : t.val = 0
      · rw [PhiS_castSucc V c t, PhiS_zero V c _ _ hz, PhiA1_eq']
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 HR Hg]
        · isplitr [Hg]
          swap; · iexact Hg
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 HR Hg]
        · isplitr [Hg]
          swap; · iexact Hg
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold at1_C out1_C_5 sout1_C_0 sout1_C_1 sout1_C_2; (try dsimp only)
      by_cases hz : t.val = 0
      · exfalso; omega
      · rw [PhiS_castSucc V c t, PhiS_pos V c _ _ hz]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HS0 HS1 HS2 HR Hg]
        · isplitr [Hg]
          swap; · iexact Hg
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold at1_B sout1_B_0 sout1_B_1 sout1_B_2; (try dsimp only)
      by_cases hz : t.val = 0
      · exfalso; omega
      · rw [PhiS_castSucc V c t, PhiS_pos V c _ _ hz]
        iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 HR Hg]
        · isplitr [Hg]
          swap; · iexact Hg
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back what the launch handed over: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq']
  iintro ⟨⟨HS0, HS1, HS2, HR⟩, Hg⟩
  isplitr [Hg]
  swap; · iexact Hg
  isplitl [HS0]; · iexists _; iexact HS0
  isplitl [HS1]; · iexists _; iexact HS1
  isplitl [HS2]; · iexists _; iexact HS2
  iexact HR

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frm

end
-- ==== Proof.FrameRunI.lean ====
import proofs.«155470_j14800457302355_2_alg».proof.Proof.Gen.KernelIdeal.Launch
import proofs.«155470_j14800457302355_2_alg».proof.Proof.Gen.KernelIdeal.Skeleton
import proofs.«155470_j14800457302355_2_alg».proof.Proof.Gen.KernelIdeal.Points
import proofs.«155470_j14800457302355_2_alg».proof.Proof.FrameQkvI
import proofs.«155470_j14800457302355_2_alg».proof.Proof.FrameAttnI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The whole run: the four format changes of the weights on the host, the projection region, the attention region.

  The buffer contents at each boundary are a fold from the launch memory: after the host operations; after the projection
  region, whose three output arrays hold what its write-backs leave; after the attention region, whose output array holds what
  its write-backs leave. Every weakly fair execution terminates with every unscoped buffer at the last boundary's contents; no
  host operation and no region writes an argument array.
-/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host operations (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit (it is entered straight from the projection region's exit). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- Argument 0 reaches the end as launched: no host operation writes it and no region writes it back. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 reaches the end as launched: no host operation writes it and no region writes it back. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 reaches the end as launched: no host operation writes it and no region writes it back. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 reaches the end as launched: no host operation writes it and no region writes it back. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 reaches the end as launched: no host operation writes it and no region writes it back. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 reaches the end as launched: no host operation writes it and no region writes it back. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 3).trans (((dat1 (V2 m ρ) c).arrAt_in 3 rfl _).trans (A_eq1 (V2 m ρ) c 3))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state: entered from every unscoped buffer at the contents before it, left at the contents after
    it. Its arrays are split out of the unscoped buffers and put back at the exit contents; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays are split out of the unscoped buffers and put back at the exit contents; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from memory m with zero counters terminates, nothing faulting, and every final
    state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Frm

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«155470_j14800457302355_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«155470_j14800457302355_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«155470_j14800457302355_2_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.LibOnlineSoftmax.lean ====
/-
  General lemmas: a softmax-weighted average of a row computed block by block with a running maximum, a running
  denominator and a running numerator (the online softmax), against the same average computed in one pass. None
  mentions a program.

  A row of scores s is cut into blocks of T entries. The one-pass form shifts every score by the row's maximum M,
  exponentiates, divides by the sum of the exponentials, multiplies by a mask weight kp and lays the result against
  the values v:  softRow s kp v = sum over j of (exp (s j - M) / (0 + sum over j' of exp (s j' - M))) * kp j * v j,
  with M = max bot (max s).

  The block form keeps a triple (m, l, a), from (bot, 0, 0): a block with scores s moves the maximum to
  m' = max m (max s), rescales the old denominator and numerator by exp (m - m') and adds the block's terms
  exp (s j - m') and exp (s j - m') * kp j * v j. The result is a / l after the last block.

  With real entries the two agree: after at least one block the running maximum is a real number c, the denominator is
  the sum of exp (s - c) and the numerator the sum of exp (s - c) * kp * v over the blocks seen so far (the rescaling is
  exp (m - m') * exp (s - m) = exp (s - m')), and a softmax-weighted average does not depend on the shift:
  both forms are (sum of exp s * kp * v) / (sum of exp s). The first block starts from m = bot, where exp (bot - m') = 0
  wipes the (zero) start values. Finiteness is used throughout: the laws fail at infinite entries.
-/
import Idealize.ShloMosaic.PureOps.Ideal

noncomputable section

namespace Cert.OnlineSoftmax

open Idealize.ShloMosaic

/-- The largest entry of a finite row, from minus infinity. -/
def rowMax {T : ℕ} (s : Fin T → EReal) : EReal := (Finset.univ : Finset (Fin T)).fold max ⊥ s

/-- One block's update of the running maximum, denominator and numerator. -/
def step {T : ℕ} (st : EReal × EReal × EReal) (s kp v : Fin T → EReal) : EReal × EReal × EReal :=
  (max st.1 (rowMax s),
   Ideal.exp (st.1 - max st.1 (rowMax s)) * st.2.1 + ∑ j : Fin T, Ideal.exp (s j - max st.1 (rowMax s)),
   Ideal.exp (st.1 - max st.1 (rowMax s)) * st.2.2 + ∑ j : Fin T, (Ideal.exp (s j - max st.1 (rowMax s)) * kp j) * v j)

/-- The running triple after the first n blocks. -/
def run {T : ℕ} (s kp v : ℕ → Fin T → EReal) : ℕ → EReal × EReal × EReal
  | 0 => (⊥, 0, 0)
  | n + 1 => step (run s kp v n) (s n) (kp n) (v n)

/-- The one-pass form over a whole row. -/
def softRow {L : ℕ} (s kp v : Fin L → EReal) : EReal :=
  ∑ j : Fin L, (Ideal.div (Ideal.exp (s j - max ⊥ (rowMax s))) (0 + ∑ j' : Fin L, Ideal.exp (s j' - max ⊥ (rowMax s))) * kp j) * v j

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The larger of two real coercions is the coercion of the larger real. -/
theorem coe_max (a b : ℝ) : max (a : EReal) (b : EReal) = ((max a b : ℝ) : EReal) :=
  (EReal.coe_strictMono.monotone.map_max).symm

/-- The exponential of a difference of two real coercions. -/
theorem exp_coe_sub (a b : ℝ) :
    Ideal.exp ((a : EReal) - (b : EReal)) = ((Real.exp (a - b) : ℝ) : EReal) := by
  rw [← EReal.coe_sub]; rfl

/-- The quotient of two real coercions with a nonzero denominator. -/
theorem div_coe (a b : ℝ) (hb : b ≠ 0) : Ideal.div (a : EReal) (b : EReal) = ((a / b : ℝ) : EReal) := by
  unfold Ideal.div
  rw [if_neg (by rw [EReal.coe_eq_zero]; exact hb), ← EReal.coe_inv, ← EReal.coe_mul, div_eq_mul_inv]

/-- The largest entry of a nonempty row of reals is a real. -/
theorem rowMax_real {T : ℕ} (hT : 0 < T) (x : Fin T → ℝ) :
    ∃ c : ℝ, rowMax (fun j => (x j : EReal)) = (c : EReal) := by
  have h1 : rowMax (fun j => (x j : EReal)) ≠ ⊤ := by
    apply lt_top_iff_ne_top.mp
    unfold rowMax
    rw [Finset.fold_max_lt]
    exact ⟨bot_lt_top, fun j _ => EReal.coe_lt_top _⟩
  have h2 : rowMax (fun j => (x j : EReal)) ≠ ⊥ := by
    apply bot_lt_iff_ne_bot.mp
    unfold rowMax
    rw [Finset.lt_fold_max]
    exact Or.inr ⟨⟨0, hT⟩, Finset.mem_univ _, EReal.bot_lt_coe _⟩
  exact ⟨_, (EReal.coe_toReal h1 h2).symm⟩

/-- The first block: from (bot, 0, 0) the start values are wiped. -/
theorem step_bot {T : ℕ} (x y z : Fin T → ℝ) (c : ℝ)
    (hc : rowMax (fun j => (x j : EReal)) = (c : EReal)) :
    step (⊥, 0, 0) (fun j => (x j : EReal)) (fun j => (y j : EReal)) (fun j => (z j : EReal))
      = ((c : EReal), ((∑ j : Fin T, Real.exp (x j - c) : ℝ) : EReal),
          ((∑ j : Fin T, Real.exp (x j - c) * y j * z j : ℝ) : EReal)) := by
  unfold step
  simp only [hc, bot_le, max_eq_right, EReal.bot_sub, Ideal.exp_bot, zero_mul, zero_add, exp_coe_sub,
    ← EReal.coe_mul, ← coe_sum]

/-- A later block: the old sums are rescaled to the new maximum. -/
theorem step_coe {T : ℕ} (x y z : Fin T → ℝ) (m l a d : ℝ)
    (hd : rowMax (fun j => (x j : EReal)) = (d : EReal)) :
    step ((m : EReal), (l : EReal), (a : EReal)) (fun j => (x j : EReal)) (fun j => (y j : EReal))
        (fun j => (z j : EReal))
      = (((max m d : ℝ) : EReal),
          ((Real.exp (m - max m d) * l + ∑ j : Fin T, Real.exp (x j - max m d) : ℝ) : EReal),
          ((Real.exp (m - max m d) * a + ∑ j : Fin T, Real.exp (x j - max m d) * y j * z j : ℝ) : EReal)) := by
  unfold step
  simp only [hd, coe_max, exp_coe_sub, ← EReal.coe_mul, ← coe_sum, ← EReal.coe_add]

/-- After at least one block the running maximum is a real c, and the running sums are the sums of
    exp (s - c) and of exp (s - c) * kp * v over the blocks seen. -/
theorem run_real {T : ℕ} (hT : 0 < T) (x y z : ℕ → Fin T → ℝ) (n : ℕ) :
    ∃ c : ℝ, run (fun k jj => (x k jj : EReal)) (fun k jj => (y k jj : EReal))
        (fun k jj => (z k jj : EReal)) (n + 1)
      = ((c : EReal),
          ((∑ k ∈ Finset.range (n + 1), ∑ jj : Fin T, Real.exp (x k jj - c) : ℝ) : EReal),
          ((∑ k ∈ Finset.range (n + 1), ∑ jj : Fin T, Real.exp (x k jj - c) * y k jj * z k jj : ℝ) : EReal)) := by
  induction n with
  | zero =>
    obtain ⟨c, hc⟩ := rowMax_real hT (x 0)
    refine ⟨c, ?_⟩
    show step (⊥, 0, 0) (fun jj => (x 0 jj : EReal)) (fun jj => (y 0 jj : EReal))
      (fun jj => (z 0 jj : EReal)) = _
    rw [step_bot (x 0) (y 0) (z 0) c hc]
    simp only [zero_add, Finset.sum_range_one]
  | succ n ih =>
    obtain ⟨c, hc⟩ := ih
    obtain ⟨d, hd⟩ := rowMax_real hT (x (n + 1))
    refine ⟨max c d, ?_⟩
    show step (run (fun k jj => (x k jj : EReal)) (fun k jj => (y k jj : EReal))
        (fun k jj => (z k jj : EReal)) (n + 1))
      (fun jj => (x (n + 1) jj : EReal)) (fun jj => (y (n + 1) jj : EReal))
      (fun jj => (z (n + 1) jj : EReal)) = _
    rw [hc, step_coe (x (n + 1)) (y (n + 1)) (z (n + 1)) c _ _ d hd]
    have hexp : ∀ t : ℝ, Real.exp (c - max c d) * Real.exp (t - c) = Real.exp (t - max c d) := by
      intro t
      rw [← Real.exp_add]
      congr 1
      ring
    have e1 : Real.exp (c - max c d) * (∑ k ∈ Finset.range (n + 1), ∑ jj : Fin T, Real.exp (x k jj - c))
        + ∑ j : Fin T, Real.exp (x (n + 1) j - max c d)
        = ∑ k ∈ Finset.range (n + 1 + 1), ∑ jj : Fin T, Real.exp (x k jj - max c d) := by
      rw [Finset.sum_range_succ _ (n + 1), Finset.mul_sum]
      congr 1
      apply Finset.sum_congr rfl
      intro k _
      rw [Finset.mul_sum]
      apply Finset.sum_congr rfl
      intro jj _
      exact hexp _
    have e2 : Real.exp (c - max c d)
          * (∑ k ∈ Finset.range (n + 1), ∑ jj : Fin T, Real.exp (x k jj - c) * y k jj * z k jj)
        + ∑ j : Fin T, Real.exp (x (n + 1) j - max c d) * y (n + 1) j * z (n + 1) j
        = ∑ k ∈ Finset.range (n + 1 + 1), ∑ jj : Fin T, Real.exp (x k jj - max c d) * y k jj * z k jj := by
      rw [Finset.sum_range_succ _ (n + 1), Finset.mul_sum]
      congr 1
      apply Finset.sum_congr rfl
      intro k _
      rw [Finset.mul_sum]
      apply Finset.sum_congr rfl
      intro jj _
      rw [← hexp (x k jj)]
      ring
    rw [e1, e2]

/-- A softmax-weighted average does not depend on the shift. -/
theorem shift_avg {ι : Type*} [Fintype ι] (x y z : ι → ℝ) (c M : ℝ) :
    (∑ j, Real.exp (x j - c) * y j * z j) / (∑ j, Real.exp (x j - c))
      = ∑ j, Real.exp (x j - M) / (∑ j', Real.exp (x j' - M)) * y j * z j := by
  have hN : ∀ a : ℝ, ∑ j, Real.exp (x j - a) * y j * z j
      = (Real.exp a)⁻¹ * ∑ j, Real.exp (x j) * y j * z j := by
    intro a
    rw [Finset.mul_sum]
    apply Finset.sum_congr rfl
    intro j _
    rw [Real.exp_sub]
    ring
  have hE : ∀ a : ℝ, ∑ j, Real.exp (x j - a) = (Real.exp a)⁻¹ * ∑ j, Real.exp (x j) := by
    intro a
    rw [Finset.mul_sum]
    apply Finset.sum_congr rfl
    intro j _
    rw [Real.exp_sub]
    ring
  have hR : ∑ j, Real.exp (x j - M) / (∑ j', Real.exp (x j' - M)) * y j * z j
      = (∑ j, Real.exp (x j - M) * y j * z j) / (∑ j', Real.exp (x j' - M)) := by
    rw [Finset.sum_div]
    apply Finset.sum_congr rfl
    intro j _
    ring
  rw [hR, hN c, hN M, hE c, hE M,
    mul_div_mul_left _ _ (inv_ne_zero (Real.exp_pos c).ne'),
    mul_div_mul_left _ _ (inv_ne_zero (Real.exp_pos M).ne')]

/-- A sum over a row of B * T entries, taken block by block. -/
theorem sum_blocks {B T : ℕ} (col : ℕ → Fin T → Fin (B * T))
    (hcol : ∀ k, k < B → ∀ jj : Fin T, (col k jj).val = k * T + jj.val) (f : Fin (B * T) → ℝ) :
    ∑ k ∈ Finset.range B, ∑ jj : Fin T, f (col k jj) = ∑ j : Fin (B * T), f j := by
  rw [← Equiv.sum_comp finProdFinEquiv f, Fintype.sum_prod_type,
    ← Fin.sum_univ_eq_sum_range (fun k => ∑ jj : Fin T, f (col k jj)) B]
  apply Finset.sum_congr rfl
  intro k _
  apply Finset.sum_congr rfl
  intro jj _
  congr 1
  apply Fin.ext
  rw [hcol k.val k.isLt jj, finProdFinEquiv_apply_val]
  ring

/-- With real entries, at least one block and nonempty blocks, the block form after B blocks of T entries is the one-pass form
    over the row of B * T entries whose entry k * T + jj is entry jj of block k. -/
theorem online_eq_soft {B T : ℕ} (hB : 0 < B) (hT : 0 < T) (σ κ ν : Fin (B * T) → ℝ) (col : ℕ → Fin T → Fin (B * T))
    (hcol : ∀ k, k < B → ∀ jj : Fin T, (col k jj).val = k * T + jj.val) :
    Ideal.div (run (fun k jj => ((σ (col k jj) : ℝ) : EReal)) (fun k jj => ((κ (col k jj) : ℝ) : EReal)) (fun k jj => ((ν (col k jj) : ℝ) : EReal)) B).2.2
        (run (fun k jj => ((σ (col k jj) : ℝ) : EReal)) (fun k jj => ((κ (col k jj) : ℝ) : EReal)) (fun k jj => ((ν (col k jj) : ℝ) : EReal)) B).2.1
      = softRow (fun j => ((σ j : ℝ) : EReal)) (fun j => ((κ j : ℝ) : EReal)) (fun j => ((ν j : ℝ) : EReal)) := by
  have hBT : 0 < B * T := Nat.mul_pos hB hT
  obtain ⟨n, rfl⟩ : ∃ n, B = n + 1 := ⟨B - 1, by omega⟩
  obtain ⟨c, hc⟩ := run_real hT (fun k jj => σ (col k jj)) (fun k jj => κ (col k jj))
    (fun k jj => ν (col k jj)) n
  obtain ⟨M, hM⟩ := rowMax_real hBT σ
  rw [hc]
  show Ideal.div
      ((∑ k ∈ Finset.range (n + 1), ∑ jj : Fin T,
        Real.exp (σ (col k jj) - c) * κ (col k jj) * ν (col k jj) : ℝ) : EReal)
      ((∑ k ∈ Finset.range (n + 1), ∑ jj : Fin T, Real.exp (σ (col k jj) - c) : ℝ) : EReal) = _
  rw [sum_blocks col hcol (fun j => Real.exp (σ j - c) * κ j * ν j),
    sum_blocks col hcol (fun j => Real.exp (σ j - c))]
  have hpos : ∀ a : ℝ, 0 < ∑ j : Fin ((n + 1) * T), Real.exp (σ j - a) := fun a =>
    Finset.sum_pos (fun j _ => Real.exp_pos _) ⟨⟨0, hBT⟩, Finset.mem_univ _⟩
  rw [div_coe _ _ (hpos c).ne']
  unfold softRow
  simp only [hM, bot_le, max_eq_right, zero_add, exp_coe_sub, ← coe_sum, div_coe _ _ (hpos M).ne',
    ← EReal.coe_mul]
  rw [shift_avg σ κ ν c M]

end Cert.OnlineSoftmax

end
-- ==== Proof.Spec.lean ====
/-
  The two arrangements of the computation, stated once over whole arrays of extended reals.

  x is an 8192 x 1024 array of frames; four 1024 x 1024 weight matrices hold one row per output feature. The queries are the
  frames through the query weights times a fixed scale, the keys and the values the frames through theirs. A query row's
  scores against all key rows go through a softmax; each softmax weight is multiplied by a keep factor read off the noise array
  (2 where the noise is at least one half, 0 elsewhere), the weighted value rows are summed, and the result goes through the
  output weights.

  attnRefAt computes the softmax in one pass over the 8192 keys; attnOnlineAt in 8 blocks of 1024 keys with a running maximum,
  denominator and numerator. With real entries the two agree (attn_law): that is the block-form law of the online softmax,
  applied per query row and value feature.
-/
import proofs.«155470_j14800457302355_2_alg».proof.Proof.LibOnlineSoftmax
import Idealize.ShloMosaic.Lib.ValueIdx
import Idealize.ShloMosaic.PureOps.Ideal
import Idealize.ShloMosaic.PureOps.Ideal.Laws

noncomputable section

namespace Cert.AttnSpec

open Idealize.ShloMosaic Idealize.ShloMosaic.ValueIdx Cert.OnlineSoftmax

abbrev SX : Shape := ⟨2, ![8192, 1024]⟩
abbrev SW : Shape := ⟨2, ![1024, 1024]⟩
abbrev SU : Shape := ⟨2, ![8192, 8192]⟩

/-- The query scale, as the bit pattern both programs carry. -/
def cScale : EReal := Ideal.ofBits .f32 0x3D75C28F#32

/-- Row i of x through a weight matrix stored one row per output feature, at feature d. -/
def proj (x : SX.Idx → EReal) (W : SW.Idx → EReal) (i : Fin 8192) (d : Fin 1024) : EReal :=
  ∑ e : Fin 1024, x (ix2 i e) * W (ix2 d e)

/-- The projected arrays. -/
def projArr (x : SX.Idx → EReal) (W : SW.Idx → EReal) : SX.Idx → EReal := fun idx => proj x W (idx 0) (idx 1)
def qArr (x : SX.Idx → EReal) (W : SW.Idx → EReal) : SX.Idx → EReal := fun idx => proj x W (idx 0) (idx 1) * cScale

/-- The keep factor of a noise value. -/
def keepE (u : EReal) : EReal :=
  Scalar.select (Ideal.cmp .oge u (Ideal.ofBits .f32 0x3F000000#32)) (Ideal.ofBits .f32 0x40000000#32) (Ideal.ofBits .f32 0x00000000#32)

/-- A query row's score against a key row. -/
def score (Q K : SX.Idx → EReal) (i j : Fin 8192) : EReal := ∑ d : Fin 1024, Q (ix2 i d) * K (ix2 j d)

/-- Key number jj of block k. -/
def col (k : ℕ) (jj : Fin 1024) : Fin 8192 := ⟨(k % 8) * 1024 + jj.val, by have := jj.isLt; have := Nat.mod_lt k (show 0 < 8 by decide); omega⟩

/-- The one-pass arrangement at row i, output feature o. -/
def attnRefAt (Q K Vv : SX.Idx → EReal) (U : SU.Idx → EReal) (Wo : SW.Idx → EReal) (i : Fin 8192) (o : Fin 1024) : EReal :=
  ∑ d : Fin 1024, softRow (L := 8192) (fun j => score Q K i j) (fun j => keepE (U (ix2 i j))) (fun j => Vv (ix2 j d)) * Wo (ix2 o d)

/-- The block arrangement at row i, output feature o. -/
def attnOnlineAt (Q K Vv : SX.Idx → EReal) (U : SU.Idx → EReal) (Wo : SW.Idx → EReal) (i : Fin 8192) (o : Fin 1024) : EReal :=
  ∑ d : Fin 1024,
    Ideal.div (run (T := 1024) (fun k jj => score Q K i (col k jj)) (fun k jj => keepE (U (ix2 i (col k jj)))) (fun k jj => Vv (ix2 (col k jj) d)) 8).2.2
      (run (T := 1024) (fun k jj => score Q K i (col k jj)) (fun k jj => keepE (U (ix2 i (col k jj)))) (fun k jj => Vv (ix2 (col k jj) d)) 8).2.1
      * Wo (ix2 o d)

/-- The whole computation, in the one-pass arrangement. -/
def refSpec (x : SX.Idx → EReal) (Wk Wq Wv Wo : SW.Idx → EReal) (U : SU.Idx → EReal) : SX.Idx → EReal :=
  fun idx => attnRefAt (qArr x Wq) (projArr x Wk) (projArr x Wv) U Wo (idx 0) (idx 1)

/-- The whole computation, in the block arrangement. -/
def onlineSpec (x : SX.Idx → EReal) (Wk Wq Wv Wo : SW.Idx → EReal) (U : SU.Idx → EReal) : SX.Idx → EReal :=
  fun idx => attnOnlineAt (qArr x Wq) (projArr x Wk) (projArr x Wv) U Wo (idx 0) (idx 1)

/-- The keep factor is a real number when the two values it chooses between are. -/
theorem keepE_real (h2 : ∃ r : ℝ, Ideal.ofBits .f32 0x40000000#32 = (r : EReal)) (u : EReal) : ∃ r : ℝ, keepE u = (r : EReal) := by
  unfold keepE Scalar.select
  split
  · exact h2
  · exact ⟨0, by rw [Ideal.ofBits_zero_f32]; rfl⟩

/-- A finite sum of products of reals is a real. -/
theorem sum_mul_real {n : ℕ} (f g : Fin n → EReal) (hf : ∀ k, ∃ r : ℝ, f k = (r : EReal)) (hg : ∀ k, ∃ r : ℝ, g k = (r : EReal)) :
    ∃ r : ℝ, (∑ k : Fin n, f k * g k) = (r : EReal) := by
  choose a ha using hf
  choose b hb using hg
  refine ⟨∑ k : Fin n, a k * b k, ?_⟩
  rw [coe_sum]
  exact Finset.sum_congr rfl fun k _ => by rw [ha k, hb k, EReal.coe_mul]

/-- With real entries the block arrangement is the one-pass arrangement. -/
theorem attn_law (Q K Vv : SX.Idx → EReal) (U : SU.Idx → EReal) (Wo : SW.Idx → EReal)
    (hQ : ∀ i, ∃ r : ℝ, Q i = (r : EReal)) (hK : ∀ i, ∃ r : ℝ, K i = (r : EReal)) (hV : ∀ i, ∃ r : ℝ, Vv i = (r : EReal))
    (h2 : ∃ r : ℝ, Ideal.ofBits .f32 0x40000000#32 = (r : EReal)) (i : Fin 8192) (o : Fin 1024) :
    attnOnlineAt Q K Vv U Wo i o = attnRefAt Q K Vv U Wo i o := by
  unfold attnOnlineAt attnRefAt
  refine Finset.sum_congr rfl fun d _ => ?_
  have hs : ∀ j : Fin 8192, ∃ r : ℝ, score Q K i j = (r : EReal) := fun j =>
    sum_mul_real _ _ (fun dd => hQ _) (fun dd => hK _)
  choose σ hσ using hs
  have hk : ∀ j : Fin 8192, ∃ r : ℝ, keepE (U (ix2 i j)) = (r : EReal) := fun j => keepE_real h2 _
  choose κ hκ using hk
  have hv : ∀ j : Fin 8192, ∃ r : ℝ, Vv (ix2 j d) = (r : EReal) := fun j => hV _
  choose ν hν using hv
  have key := online_eq_soft (B := 8) (T := 1024) (by decide) (by decide) σ κ ν col
    (fun k hk jj => by show (k % 8) * 1024 + jj.val = k * 1024 + jj.val; rw [Nat.mod_eq_of_lt hk])
  simp only [hσ, hκ, hν]
  exact congrArg (· * Wo (ix2 o d)) key

end Cert.AttnSpec

end
-- ==== Proof.QkvMath.lean ====
/-
  The projection body's arithmetic read at an index, over the extended reals: each output block is the product of the block of
  frames with a weight matrix, contracted over the input features, the weights holding one row per output feature; the query
  block is also multiplied by the fixed scale.
-/
import proofs.«155470_j14800457302355_2_alg».proof.Proof.Gen.KernelIdeal.Skeleton
import proofs.«155470_j14800457302355_2_alg».proof.Proof.LibTransposed
import proofs.«155470_j14800457302355_2_alg».proof.Proof.Spec
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Cert.LayoutLib Cert.TransposedLib Cert.AttnSpec

variable (xb : FVec Ideal S1024x1024 .f32) (wb : FVec Ideal S1024x1024 .bf16)

theorem qpay2_apply (r d : Fin 1024) : k0_pay2 (F := Ideal) xb wb (ix2 r d) = (∑ e : Fin 1024, (xb (ix2 r e) : EReal) * (wb (ix2 d e) : EReal)) * cScale := by
  unfold k0_pay2 k0_pay1
  show matmul dot_S1024x1024_S1024x1024_S1024x1024_1_1_0_0_n_n none (truncf .bf16 xb bitsLt_bf16_f32)
    (shapeCast S1024x1024 wb shapeCasts_S1024x1024_S1024x1024) (constant S1024x1024 .f32 0x00000000#32) (ix2 r d) * Ideal.ofBits .f32 0x3D75C28F#32 = _
  rw [shapeCast_self]
  refine congrArg (· * cScale) ?_
  exact (Ideal.matmul_constant_zero_apply _ none (truncf .bf16 xb bitsLt_bf16_f32) wb (ix2 r d)).trans (dot_transposedRhs_sum _ rfl xb wb r d)

theorem qpay3_apply (r d : Fin 1024) : k0_pay3 (F := Ideal) xb wb (ix2 r d) = ∑ e : Fin 1024, (xb (ix2 r e) : EReal) * (wb (ix2 d e) : EReal) := by
  unfold k0_pay3 k0_pay1
  show matmul dot_S1024x1024_S1024x1024_S1024x1024_1_1_0_0_n_n none (truncf .bf16 xb bitsLt_bf16_f32)
    (shapeCast S1024x1024 wb shapeCasts_S1024x1024_S1024x1024) (constant S1024x1024 .f32 0x00000000#32) (ix2 r d) = _
  rw [shapeCast_self]
  exact (Ideal.matmul_constant_zero_apply _ none (truncf .bf16 xb bitsLt_bf16_f32) wb (ix2 r d)).trans (dot_transposedRhs_sum _ rfl xb wb r d)

theorem qpay4_apply (r d : Fin 1024) : k0_pay4 (F := Ideal) xb wb (ix2 r d) = ∑ e : Fin 1024, (xb (ix2 r e) : EReal) * (wb (ix2 d e) : EReal) := by
  unfold k0_pay4 k0_pay1
  show matmul dot_S1024x1024_S1024x1024_S1024x1024_1_1_0_0_n_n none (truncf .bf16 xb bitsLt_bf16_f32)
    (shapeCast S1024x1024 wb shapeCasts_S1024x1024_S1024x1024) (constant S1024x1024 .f32 0x00000000#32) (ix2 r d) = _
  rw [shapeCast_self]
  exact (Ideal.matmul_constant_zero_apply _ none (truncf .bf16 xb bitsLt_bf16_f32) wb (ix2 r d)).trans (dot_transposedRhs_sum _ rfl xb wb r d)

end Cert.KernelIdeal.Val

end
-- ==== Proof.QkvValue.lean ====
/-
  What the projection region leaves in its three output arrays, as whole-array functions of the arrays it finds.

  Point t of the region's 8 points stages rows 1024 t .. 1024 t + 1023 of the frames and the three weight matrices whole, and
  writes back rows 1024 t .. 1024 t + 1023 of each output array. Entry (r, d) of a written block is the product of frame row r of the
  block with weight row d, so entry (i, d) of an output array is the product of frame row i with weight row d: every row lies in
  exactly the block of the point i / 1024.
-/
import proofs.«155470_j14800457302355_2_alg».proof.Proof.FrameQkvI
import proofs.«155470_j14800457302355_2_alg».proof.Proof.QkvMath

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Cert.AttnSpec
open Idealize.ShloMosaic.Pipeline (Dat)

variable (V : (c : Dev nD) → (b : Ref sig .tc) → Buf (Elt Ideal) ((c : Thread nD τ).loc b))

theorem hzq : (![0, 0] : Fin 2 → ℕ) = fun _ => 0 := funext fun a => by fin_cases a <;> rfl

/-- The block indices of the region's windows, decided over its 8 points. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 ∧ t.val < 8 :=
  (by decide +kernel : ∀ t : Fin grid0.N, _)

/-- Row r of the frame block at point t is row 1024 t + r of the frame array. -/
theorem xblk_apply (c : Dev nD) (t : Fin cfg0.N) (r e : Fin 1024) (i : Fin 8192) (hi : i.val = t.val * 1024 + r.val) :
    iblk0 V c 0 t (ix2 r e) = V c main_arg0 (ix2 i e) := by
  obtain ⟨e0, e1, -⟩ := idx0_facts t
  show V c main_arg0 (((cfg0.win 0).blk t).view.emb (ix2 r e)) = V c main_arg0 (ix2 i e)
  refine congrArg (V c main_arg0) (funext fun a => Fin.ext ?_)
  match a with
  | ⟨0, _⟩ => show win0_0.index t (0 : Fin 2) * 1024 + 1 * r.val = i.val; omega
  | ⟨1, _⟩ => show win0_0.index t (1 : Fin 2) * 1024 + 1 * e.val = e.val; omega

/-- A weight window's block is the whole weight array, at every point. -/
theorem wblk1_apply (c : Dev nD) (t : Fin cfg0.N) (d e : Fin 1024) : iblk0 V c 1 t (ix2 d e) = V c main_v1 (ix2 d e) := by
  obtain ⟨-, -, e0, e1, -⟩ := idx0_facts t
  show V c main_v1 (((cfg0.win 1).blk t).view.emb (ix2 d e)) = V c main_v1 (ix2 d e)
  refine congrArg (V c main_v1) (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega
theorem wblk2_apply (c : Dev nD) (t : Fin cfg0.N) (d e : Fin 1024) : iblk0 V c 2 t (ix2 d e) = V c main_v0 (ix2 d e) := by
  obtain ⟨-, -, -, -, e0, e1, -⟩ := idx0_facts t
  show V c main_v0 (((cfg0.win 2).blk t).view.emb (ix2 d e)) = V c main_v0 (ix2 d e)
  refine congrArg (V c main_v0) (funext fun a => Fin.ext ?_)
  match a with
  | ⟨0, _⟩ => show win0_2.index t (0 : Fin 2) * 1024 + 1 * d.val = d.val; omega
  | ⟨1, _⟩ => show win0_2.index t (1 : Fin 2) * 1024 + 1 * e.val = e.val; omega
theorem wblk3_apply (c : Dev nD) (t : Fin cfg0.N) (d e : Fin 1024) : iblk0 V c 3 t (ix2 d e) = V c main_v2 (ix2 d e) := by
  obtain ⟨-, -, -, -, -, -, e0, e1, -⟩ := idx0_facts t
  show V c main_v2 (((cfg0.win 3).blk t).view.emb (ix2 d e)) = V c main_v2 (ix2 d e)
  refine congrArg (V c main_v2) (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- What point t writes back through output window 4 is block t of the whole-array function. -/
theorem flushed0_4_eq (c : Dev nD) (t : Fin cfg0.N) :
    (dat0 V c).flushed 4 t = ((cfg0.win 4).blk t).view.read (Elt Ideal) (qArr (V c main_arg0) (V c main_v1)) := by
  show (cfg0.win 4).cut (grid0.coords t) ((dat0 V c).after 4 t) = _
  rw [after0_4]
  unfold out0_4
  rw [View.canon_unit_zero hzq]
  simp only [View.ld_unit_zero (S := S1024x1024) hzq]
  obtain ⟨-, -, -, -, -, -, -, -, f40, f41, f50, f51, f60, f61, hlt⟩ := idx0_facts t
  funext j
  obtain ⟨r, d, rfl⟩ : ∃ (r : Fin 1024) (d : Fin 1024), j = ix2 r d := ⟨j 0, j 1, eq_ix2 j⟩
  have hi : t.val * 1024 + r.val < 8192 := by have := r.isLt; omega
  refine (qpay2_apply _ _ r d).trans ?_
  show _ = qArr (V c main_arg0) (V c main_v1) (((cfg0.win 4).blk t).view.emb (ix2 r d))
  have hemb : ((cfg0.win 4).blk t).view.emb (ix2 r d) = ix2 (⟨t.val * 1024 + r.val, hi⟩ : Fin 8192) d := by
    funext a; apply Fin.ext
    match a with
    | ⟨0, _⟩ => show win0_4.index t (0 : Fin 2) * 1024 + 1 * r.val = t.val * 1024 + r.val; omega
    | ⟨1, _⟩ => show win0_4.index t (1 : Fin 2) * 1024 + 1 * d.val = d.val; omega
  rw [hemb]
  show _ = proj (V c main_arg0) (V c main_v1) ⟨t.val * 1024 + r.val, hi⟩ d * cScale
  unfold proj
  refine congrArg (· * cScale) (Finset.sum_congr rfl fun e _ => ?_)
  rw [xblk_apply V c t r e ⟨t.val * 1024 + r.val, hi⟩ rfl, wblk1_apply V c t d e]

theorem mem_blk0_4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4_0).slice (win0_4.rect t)).set ↔ _
  rw [View.set_slice_whole, Rect.mem_set_unit]
  exact Iff.rfl

/-- Every entry of output array 4 lies in the block of some point. -/
theorem cover0_4' (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 8 := N_0
  let t : Fin cfg0.N := ⟨(i 0).val / 1024, by rw [hN]; omega⟩
  refine ⟨t, flush0_4 t, ?_⟩
  obtain ⟨-, -, -, -, -, -, -, -, f40, f41, f50, f51, f60, f61, hlt⟩ := idx0_facts t
  rw [mem_blk0_4]
  intro a
  have htv : t.val = (i 0).val / 1024 := rfl
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- Output array 4 after the region. -/
theorem final0_4 (c : Dev nD) : (dat0 V c).arrAt 4 cfg0.N = qArr (V c main_arg0) (V c main_v1) :=
  (dat0 V c).arrAt_eq_of_cover 4 _ (fun t _ => flushed0_4_eq V c t) (cover0_4' )

/-- What point t writes back through output window 5 is block t of the whole-array function. -/
theorem flushed0_5_eq (c : Dev nD) (t : Fin cfg0.N) :
    (dat0 V c).flushed 5 t = ((cfg0.win 5).blk t).view.read (Elt Ideal) (projArr (V c main_arg0) (V c main_v0)) := by
  show (cfg0.win 5).cut (grid0.coords t) ((dat0 V c).after 5 t) = _
  rw [after0_5]
  unfold out0_5
  rw [View.canon_unit_zero hzq]
  simp only [View.ld_unit_zero (S := S1024x1024) hzq]
  obtain ⟨-, -, -, -, -, -, -, -, f40, f41, f50, f51, f60, f61, hlt⟩ := idx0_facts t
  funext j
  obtain ⟨r, d, rfl⟩ : ∃ (r : Fin 1024) (d : Fin 1024), j = ix2 r d := ⟨j 0, j 1, eq_ix2 j⟩
  have hi : t.val * 1024 + r.val < 8192 := by have := r.isLt; omega
  refine (qpay3_apply _ _ r d).trans ?_
  show _ = projArr (V c main_arg0) (V c main_v0) (((cfg0.win 5).blk t).view.emb (ix2 r d))
  have hemb : ((cfg0.win 5).blk t).view.emb (ix2 r d) = ix2 (⟨t.val * 1024 + r.val, hi⟩ : Fin 8192) d := by
    funext a; apply Fin.ext
    match a with
    | ⟨0, _⟩ => show win0_5.index t (0 : Fin 2) * 1024 + 1 * r.val = t.val * 1024 + r.val; omega
    | ⟨1, _⟩ => show win0_5.index t (1 : Fin 2) * 1024 + 1 * d.val = d.val; omega
  rw [hemb]
  show _ = proj (V c main_arg0) (V c main_v0) ⟨t.val * 1024 + r.val, hi⟩ d
  unfold proj
  refine (Finset.sum_congr rfl fun e _ => ?_)
  rw [xblk_apply V c t r e ⟨t.val * 1024 + r.val, hi⟩ rfl, wblk2_apply V c t d e]

theorem mem_blk0_5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4_1).slice (win0_5.rect t)).set ↔ _
  rw [View.set_slice_whole, Rect.mem_set_unit]
  exact Iff.rfl

/-- Every entry of output array 5 lies in the block of some point. -/
theorem cover0_5' (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 8 := N_0
  let t : Fin cfg0.N := ⟨(i 0).val / 1024, by rw [hN]; omega⟩
  refine ⟨t, flush0_5 t, ?_⟩
  obtain ⟨-, -, -, -, -, -, -, -, f40, f41, f50, f51, f60, f61, hlt⟩ := idx0_facts t
  rw [mem_blk0_5]
  intro a
  have htv : t.val = (i 0).val / 1024 := rfl
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- Output array 5 after the region. -/
theorem final0_5 (c : Dev nD) : (dat0 V c).arrAt 5 cfg0.N = projArr (V c main_arg0) (V c main_v0) :=
  (dat0 V c).arrAt_eq_of_cover 5 _ (fun t _ => flushed0_5_eq V c t) (cover0_5' )

/-- What point t writes back through output window 6 is block t of the whole-array function. -/
theorem flushed0_6_eq (c : Dev nD) (t : Fin cfg0.N) :
    (dat0 V c).flushed 6 t = ((cfg0.win 6).blk t).view.read (Elt Ideal) (projArr (V c main_arg0) (V c main_v2)) := by
  show (cfg0.win 6).cut (grid0.coords t) ((dat0 V c).after 6 t) = _
  rw [after0_6]
  unfold out0_6
  rw [View.canon_unit_zero hzq]
  simp only [View.ld_unit_zero (S := S1024x1024) hzq]
  obtain ⟨-, -, -, -, -, -, -, -, f40, f41, f50, f51, f60, f61, hlt⟩ := idx0_facts t
  funext j
  obtain ⟨r, d, rfl⟩ : ∃ (r : Fin 1024) (d : Fin 1024), j = ix2 r d := ⟨j 0, j 1, eq_ix2 j⟩
  have hi : t.val * 1024 + r.val < 8192 := by have := r.isLt; omega
  refine (qpay4_apply _ _ r d).trans ?_
  show _ = projArr (V c main_arg0) (V c main_v2) (((cfg0.win 6).blk t).view.emb (ix2 r d))
  have hemb : ((cfg0.win 6).blk t).view.emb (ix2 r d) = ix2 (⟨t.val * 1024 + r.val, hi⟩ : Fin 8192) d := by
    funext a; apply Fin.ext
    match a with
    | ⟨0, _⟩ => show win0_6.index t (0 : Fin 2) * 1024 + 1 * r.val = t.val * 1024 + r.val; omega
    | ⟨1, _⟩ => show win0_6.index t (1 : Fin 2) * 1024 + 1 * d.val = d.val; omega
  rw [hemb]
  show _ = proj (V c main_arg0) (V c main_v2) ⟨t.val * 1024 + r.val, hi⟩ d
  unfold proj
  refine (Finset.sum_congr rfl fun e _ => ?_)
  rw [xblk_apply V c t r e ⟨t.val * 1024 + r.val, hi⟩ rfl, wblk3_apply V c t d e]

theorem mem_blk0_6 (t : Fin cfg0.N) (i : S8192x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v4_2).slice (win0_6.rect t)).set ↔ _
  rw [View.set_slice_whole, Rect.mem_set_unit]
  exact Iff.rfl

/-- Every entry of output array 6 lies in the block of some point. -/
theorem cover0_6' (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 8 := N_0
  let t : Fin cfg0.N := ⟨(i 0).val / 1024, by rw [hN]; omega⟩
  refine ⟨t, flush0_6 t, ?_⟩
  obtain ⟨-, -, -, -, -, -, -, -, f40, f41, f50, f51, f60, f61, hlt⟩ := idx0_facts t
  rw [mem_blk0_6]
  intro a
  have htv : t.val = (i 0).val / 1024 := rfl
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- Output array 6 after the region. -/
theorem final0_6 (c : Dev nD) : (dat0 V c).arrAt 6 cfg0.N = projArr (V c main_arg0) (V c main_v2) :=
  (dat0 V c).arrAt_eq_of_cover 6 _ (fun t _ => flushed0_6_eq V c t) (cover0_6' )

end Cert.KernelIdeal.Val

end
-- ==== Proof.AttnPiecesI.lean ====
import proofs.«155470_j14800457302355_2_alg».proof.Proof.Gen.KernelIdeal.Launch
import proofs.«155470_j14800457302355_2_alg».proof.Proof.Gen.KernelIdeal.Skeleton
import proofs.«155470_j14800457302355_2_alg».proof.Proof.Gen.KernelIdeal.Points
import proofs.«155470_j14800457302355_2_alg».proof.Proof.FrameAttnI
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  What each case of the attention body leaves, as the body's named arithmetic of what it was handed: the new running maximum, the
  new running denominator, the new running numerator, and in the last case the output block. A load of a buffer the body has just
  stored whole reads the stored value, and a load of a buffer handed over at known contents reads those contents.
-/

theorem hz2 : (![0, 0] : Fin 2 → ℕ) = fun _ => 0 := funext fun a => by fin_cases a <;> rfl

set_option maxHeartbeats 2000000 in
theorem sout1_A_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) :
    sout1_A_0 c i arg2 harg2 arg3 harg3 arg4 harg4 arg5 harg5 arg6 harg6 arg7 harg7 arg8 harg8 arg9 harg9 arg10 harg10 hc0 hc1 x0 x1 x2 x3 x4 = k1_pay2 (k1_pay9 x0 x1 (k1_pay4 (F := F))) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem sout1_A_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) :
    sout1_A_1 c i arg2 harg2 arg3 harg3 arg4 harg4 arg5 harg5 arg6 harg6 arg7 harg7 arg8 harg8 arg9 harg9 arg10 harg10 hc0 hc1 x0 x1 x2 x3 x4 = k1_pay12 x0 x1 (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem sout1_A_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 x1 x2 : Vec F S1024x1024 .bf16) (x3 : Vec F S1024x1024 .f32) (x4 : Vec F S1024x1024 .bf16) :
    sout1_A_2 c i arg2 harg2 arg3 harg3 arg4 harg4 arg5 harg5 arg6 harg6 arg7 harg7 arg8 harg8 arg9 harg9 arg10 harg10 hc0 hc1 x0 x1 x2 x3 x4 = k1_pay1 (k1_pay7 x2) (k1_pay10 x0 x1 (k1_pay4 (F := F))) (k1_pay13 x0 x1 (k1_pay4 (F := F)) x3) (k1_pay6 (F := F)) := by
  unfold sout1_A_2
  rw [View.read_writes_eq_canon _ _ _ (scover1_A_2 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem sout1_B_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    sout1_B_0 c i arg2 harg2 arg3 harg3 arg4 harg4 arg5 harg5 arg6 harg6 arg7 harg7 arg8 harg8 arg9 harg9 arg10 harg10 hc0 hc1 x0 x1 x2 x3 x4 xs0 xs1 xs2 = k1_pay2 (k1_pay9 x0 x1 xs0) := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem sout1_B_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    sout1_B_1 c i arg2 harg2 arg3 harg3 arg4 harg4 arg5 harg5 arg6 harg6 arg7 harg7 arg8 harg8 arg9 harg9 arg10 harg10 hc0 hc1 x0 x1 x2 x3 x4 xs0 xs1 xs2 = k1_pay12 x0 x1 xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem sout1_B_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    sout1_B_2 c i arg2 harg2 arg3 harg3 arg4 harg4 arg5 harg5 arg6 harg6 arg7 harg7 arg8 harg8 arg9 harg9 arg10 harg10 hc0 hc1 x0 x1 x2 x3 x4 xs0 xs1 xs2 = k1_pay1 (k1_pay7 x2) (k1_pay10 x0 x1 xs0) (k1_pay13 x0 x1 xs0 x3) xs2 := by
  unfold sout1_B_2
  rw [View.read_writes_eq_canon _ _ _ (scover1_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem sout1_C_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    sout1_C_0 c i arg2 harg2 arg3 harg3 arg4 harg4 arg5 harg5 arg6 harg6 arg7 harg7 arg8 harg8 arg9 harg9 arg10 harg10 hc0 hc1 x0 x1 x2 x3 x4 xs0 xs1 xs2 = k1_pay2 (k1_pay9 x0 x1 xs0) := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem sout1_C_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    sout1_C_1 c i arg2 harg2 arg3 harg3 arg4 harg4 arg5 harg5 arg6 harg6 arg7 harg7 arg8 harg8 arg9 harg9 arg10 harg10 hc0 hc1 x0 x1 x2 x3 x4 xs0 xs1 xs2 = k1_pay12 x0 x1 xs0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem sout1_C_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    sout1_C_2 c i arg2 harg2 arg3 harg3 arg4 harg4 arg5 harg5 arg6 harg6 arg7 harg7 arg8 harg8 arg9 harg9 arg10 harg10 hc0 hc1 x0 x1 x2 x3 x4 xs0 xs1 xs2 = k1_pay1 (k1_pay7 x2) (k1_pay10 x0 x1 xs0) (k1_pay13 x0 x1 xs0 x3) xs2 := by
  unfold sout1_C_2
  rw [View.read_writes_eq_canon _ _ _ (scover1_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

set_option maxHeartbeats 2000000 in
theorem out1_C_5_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 x1 x2 : Vec F S1024x1024 .bf16) (x3 : Vec F S1024x1024 .f32) (x4 : Vec F S1024x1024 .bf16) (xs0 xs1 : Vec F S1024x1 .f32) (xs2 : Vec F S1024x1024 .f32) :
    out1_C_5 c i arg2 harg2 arg3 harg3 arg4 harg4 arg5 harg5 arg6 harg6 arg7 harg7 arg8 harg8 arg9 harg9 arg10 harg10 hc0 hc1 x0 x1 x2 x3 x4 xs0 xs1 xs2 = k1_pay3 (k1_pay1 (k1_pay7 x2) (k1_pay10 x0 x1 xs0) (k1_pay13 x0 x1 xs0 x3) xs2) (k1_pay12 x0 x1 xs0 xs1) x4 := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x1) hz2, View.readCov_unit_zero (S := S1024x1) _ hz2, View.readCov_unit_zero (S := S1024x1024) _ hz2]

end Cert.KernelIdeal.Frm

end
-- ==== Proof.AttnMath.lean ====
/-
  The attention body's arithmetic read at an index, over the extended reals.

  The body works on 1024 x 1024 blocks: a block q of query rows, a block k of key rows, a block v of value rows, a block u of the
  noise array, and a carried state: a column m of running row maxima, a column l of running denominators and a block a of running
  numerators. Read at row r (and value feature d) every step is the scalar update of the online softmax: the block's scores of
  row r are the products of query row r with the key rows, the new maximum is the larger of the old one and the scores' maximum,
  and the old denominator and numerator are rescaled by the exponential of the maxima's difference before the block's terms are
  added. The epilogue divides the numerator by the denominator and multiplies with the output weights.
-/
import proofs.«155470_j14800457302355_2_alg».proof.Proof.Gen.KernelIdeal.Skeleton
import proofs.«155470_j14800457302355_2_alg».proof.Proof.LibTransposed
import proofs.«155470_j14800457302355_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Cert.LayoutLib Cert.TransposedLib Cert.OnlineSoftmax Cert.AttnSpec

/-- The bit pattern of minus infinity is the bottom of the extended reals. -/
theorem ofBits_neg_inf : Ideal.ofBits .f32 0xFF800000#32 = (⊥ : EReal) := by simp [Ideal.ofBits, Ideal.ieee]

/-- A row maximum taken by the vector unit, from minus infinity. -/
theorem rowmax_red {a b : ℕ} (src : FVec Ideal ⟨2, ![a, b]⟩ .f32) (h : (⟨2, ![a, b]⟩ : Shape).Reduces [(1 : Fin 2)] ⟨1, ![a]⟩)
    (hφ : FKind.Formats .f32) (hacc : (0xFF800000#32 : BitVec 32) = FKind.maximumf.neutral .f32 hφ) (p : Fin a) :
    multiReduction .maximumf [(1 : Fin 2)] ⟨1, ![a]⟩ src 0xFF800000#32 h hφ hacc (ix1 p) = rowMax (fun k : Fin b => src (ix2 p k)) := by
  refine (Ideal.multiReduction_maximumf_single src 0xFF800000#32 h hφ hacc (ix1 p)).trans ?_
  unfold rowMax
  rw [show (FloatOps.ofBits (F := Ideal) .f32 0xFF800000#32 : EReal) = ⊥ from ofBits_neg_inf]
  exact congrArg (fun f => (Finset.univ : Finset (Fin b)).fold max ⊥ f) (funext fun k => congrArg src (lift_row h p k))

/-- A row sum taken by the vector unit, from zero. -/
theorem rowsum_red {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

variable (x0 x1 x2 : FVec Ideal S1024x1024 .bf16) (x3 : FVec Ideal S1024x1024 .f32)
  (sm sl : FVec Ideal S1024x1 .f32) (sa : FVec Ideal S1024x1024 .f32)

/-- The scores of query row r against key row jj of the block. -/
theorem pay8_apply (r jj : Fin 1024) : k1_pay8 (F := Ideal) x0 x1 (ix2 r jj) = ∑ dd : Fin 1024, (x0 (ix2 r dd) : EReal) * (x1 (ix2 jj dd) : EReal) := by
  unfold k1_pay8
  show matmul dot_S1024x1024_S1024x1024_S1024x1024_1_1_0_0_n_n none (shapeCast S1024x1024 x0 shapeCasts_S1024x1024_S1024x1024)
    (shapeCast S1024x1024 x1 shapeCasts_S1024x1024_S1024x1024) (constant S1024x1024 .f32 0x00000000#32) (ix2 r jj) = _
  rw [shapeCast_self, shapeCast_self]
  exact (Ideal.matmul_constant_zero_apply _ none x0 x1 (ix2 r jj)).trans (dot_transposedRhs_sum _ rfl x0 x1 r jj)

/-- The new running maximum of row r. -/
theorem pay9_apply (r : Fin 1024) :
    k1_pay9 (F := Ideal) x0 x1 sm (ix2 r (0 : Fin 1)) = max (sm (ix2 r (0 : Fin 1))) (rowMax fun jj : Fin 1024 => k1_pay8 (F := Ideal) x0 x1 (ix2 r jj)) := by
  unfold k1_pay9
  refine (maximumf_apply _ _ _).trans ?_
  refine congrArg (max (sm (ix2 r (0 : Fin 1)))) ?_
  refine (shapeCast_col_apply _ _ r (0 : Fin 1)).trans ?_
  exact rowmax_red (k1_pay8 (F := Ideal) x0 x1) _ _ _ r

/-- The rescaling factor of row r. -/
theorem pay10_apply (r : Fin 1024) :
    k1_pay10 (F := Ideal) x0 x1 sm (ix2 r (0 : Fin 1)) = Ideal.exp (sm (ix2 r (0 : Fin 1)) - k1_pay9 (F := Ideal) x0 x1 sm (ix2 r (0 : Fin 1))) := rfl

/-- The exponentials of the block's shifted scores. -/
theorem pay11_apply (r jj : Fin 1024) :
    k1_pay11 (F := Ideal) x0 x1 sm (ix2 r jj) = Ideal.exp (k1_pay8 (F := Ideal) x0 x1 (ix2 r jj) - k1_pay9 (F := Ideal) x0 x1 sm (ix2 r (0 : Fin 1))) := by
  unfold k1_pay11
  show Ideal.exp (k1_pay8 (F := Ideal) x0 x1 (ix2 r jj) - broadcastTo S1024x1024 (k1_pay9 (F := Ideal) x0 x1 sm) broadcasts_S1024x1_S1024x1024 (ix2 r jj)) = _
  rw [broadcastTo_col_apply]

/-- The new running denominator of row r. -/
theorem pay12_apply (r : Fin 1024) :
    k1_pay12 (F := Ideal) x0 x1 sm sl (ix2 r (0 : Fin 1))
      = k1_pay10 (F := Ideal) x0 x1 sm (ix2 r (0 : Fin 1)) * sl (ix2 r (0 : Fin 1)) + ∑ jj : Fin 1024, k1_pay11 (F := Ideal) x0 x1 sm (ix2 r jj) := by
  unfold k1_pay12
  show shapeCast S1024x1 (addf (mulf (k1_pay10 (F := Ideal) x0 x1 sm) sl) (shapeCast S1024x1 (multiReduction .add [1] S1024 (k1_pay11 (F := Ideal) x0 x1 sm) 0x00000000#32 reduces_S1024x1024_S1024 (.inl rfl) rfl) shapeCasts_S1024_S1024x1)) shapeCasts_S1024x1_S1024x1 (ix2 r (0 : Fin 1)) = _
  rw [shapeCast_self]
  show k1_pay10 (F := Ideal) x0 x1 sm (ix2 r (0 : Fin 1)) * sl (ix2 r (0 : Fin 1)) + shapeCast S1024x1 (multiReduction .add [1] S1024 (k1_pay11 (F := Ideal) x0 x1 sm) 0x00000000#32 reduces_S1024x1024_S1024 (.inl rfl) rfl) shapeCasts_S1024_S1024x1 (ix2 r (0 : Fin 1)) = _
  refine congrArg (k1_pay10 (F := Ideal) x0 x1 sm (ix2 r (0 : Fin 1)) * sl (ix2 r (0 : Fin 1)) + ·) ?_
  refine (shapeCast_col_apply _ _ r (0 : Fin 1)).trans ?_
  exact rowsum_red (k1_pay11 (F := Ideal) x0 x1 sm) _ _ _ r

/-- The block's exponentials times the keep factors. -/
theorem pay13_apply (r jj : Fin 1024) :
    k1_pay13 (F := Ideal) x0 x1 sm x3 (ix2 r jj) = k1_pay11 (F := Ideal) x0 x1 sm (ix2 r jj) * keepE (x3 (ix2 r jj)) := rfl

/-- The new running numerator of row r at value feature d. -/
theorem pay1_apply (al : FVec Ideal S1024x1 .f32) (pk : FVec Ideal S1024x1024 .f32) (r d : Fin 1024) :
    k1_pay1 (F := Ideal) (k1_pay7 (F := Ideal) x2) al pk sa (ix2 r d) = al (ix2 r (0 : Fin 1)) * sa (ix2 r d) + ∑ jj : Fin 1024, (pk (ix2 r jj) : EReal) * (x2 (ix2 jj d) : EReal) := by
  unfold k1_pay1 k1_pay7
  show shapeCast S1024x1024 (addf (mulf (broadcastTo S1024x1024 al broadcasts_S1024x1_S1024x1024) sa)
    (matmul dot_S1024x1024_S1024x1024_S1024x1024_1_0_0_1_n_n none (truncf .bf16 pk bitsLt_bf16_f32) (shapeCast S1024x1024 x2 shapeCasts_S1024x1024_S1024x1024) (constant S1024x1024 .f32 0x00000000#32))) shapeCasts_S1024x1024_S1024x1024 (ix2 r d) = _
  rw [shapeCast_self, shapeCast_self]
  show broadcastTo S1024x1024 al broadcasts_S1024x1_S1024x1024 (ix2 r d) * sa (ix2 r d)
    + matmul dot_S1024x1024_S1024x1024_S1024x1024_1_0_0_1_n_n none (truncf .bf16 pk bitsLt_bf16_f32) x2 (constant S1024x1024 .f32 0x00000000#32) (ix2 r d) = _
  rw [broadcastTo_col_apply]
  refine congrArg (al (ix2 r (0 : Fin 1)) * sa (ix2 r d) + ·) ?_
  exact (Ideal.matmul_constant_zero_apply _ none (truncf .bf16 pk bitsLt_bf16_f32) x2 (ix2 r d)).trans (dot_plain_sum _ rfl pk x2 r d)

/-- The output block at row r, output feature o. -/
theorem pay3_apply (x4 : FVec Ideal S1024x1024 .bf16) (r o : Fin 1024) :
    k1_pay3 (F := Ideal) sa sl x4 (ix2 r o) = ∑ d : Fin 1024, Ideal.div (sa (ix2 r d)) (sl (ix2 r (0 : Fin 1))) * (x4 (ix2 o d) : EReal) := by
  unfold k1_pay3
  show matmul dot_S1024x1024_S1024x1024_S1024x1024_1_1_0_0_n_n none (truncf .bf16 (divf sa (broadcastTo S1024x1024 sl broadcasts_S1024x1_S1024x1024)) bitsLt_bf16_f32)
    (shapeCast S1024x1024 x4 shapeCasts_S1024x1024_S1024x1024) (constant S1024x1024 .f32 0x00000000#32) (ix2 r o) = _
  rw [shapeCast_self]
  refine (Ideal.matmul_constant_zero_apply _ none _ x4 (ix2 r o)).trans ?_
  refine (dot_transposedRhs_sum _ rfl (truncf .bf16 (divf sa (broadcastTo S1024x1024 sl broadcasts_S1024x1_S1024x1024)) bitsLt_bf16_f32) x4 r o).trans ?_
  refine Finset.sum_congr rfl fun d _ => ?_
  show Ideal.div (sa (ix2 r d)) (broadcastTo S1024x1024 sl broadcasts_S1024x1_S1024x1024 (ix2 r d)) * x4 (ix2 o d) = _
  rw [broadcastTo_col_apply]

/-- The reset values. -/
theorem pay4_apply (r : Fin 1024) : k1_pay4 (F := Ideal) (ix2 r (0 : Fin 1)) = (⊥ : EReal) := by
  unfold k1_pay4
  show shapeCast S1024x1 (broadcast S1024x1 (Scalar.ofBits (F := Ideal) .f32 0xFF800000#32)) shapeCasts_S1024x1_S1024x1 (ix2 r (0 : Fin 1)) = _
  rw [shapeCast_self]
  exact ofBits_neg_inf
theorem pay5_apply (r : Fin 1024) : k1_pay5 (F := Ideal) (ix2 r (0 : Fin 1)) = (0 : EReal) := by
  unfold k1_pay5
  show shapeCast S1024x1 (broadcast S1024x1 (Scalar.ofBits (F := Ideal) .f32 0x00000000#32)) shapeCasts_S1024x1_S1024x1 (ix2 r (0 : Fin 1)) = _
  rw [shapeCast_self]
  exact Ideal.ofBits_zero_f32
theorem pay6_apply (r d : Fin 1024) : k1_pay6 (F := Ideal) (ix2 r d) = (0 : EReal) := by
  unfold k1_pay6
  show shapeCast S1024x1024 (broadcast S1024x1024 (Scalar.ofBits (F := Ideal) .f32 0x00000000#32)) shapeCasts_S1024x1024_S1024x1024 (ix2 r d) = _
  rw [shapeCast_self]
  exact Ideal.ofBits_zero_f32

/-! ## One point's update of the carried state, as the scalar update row by row -/

/-- The state a point leaves, from the blocks and the state it was handed. -/
def stepS (s : FVec Ideal S1024x1 .f32 × FVec Ideal S1024x1 .f32 × FVec Ideal S1024x1024 .f32) :
    FVec Ideal S1024x1 .f32 × FVec Ideal S1024x1 .f32 × FVec Ideal S1024x1024 .f32 :=
  (k1_pay2 (F := Ideal) (k1_pay9 (F := Ideal) x0 x1 s.1), k1_pay12 (F := Ideal) x0 x1 s.1 s.2.1, k1_pay1 (F := Ideal) (k1_pay7 (F := Ideal) x2) (k1_pay10 (F := Ideal) x0 x1 s.1) (k1_pay13 (F := Ideal) x0 x1 s.1 x3) s.2.2)

/-- The state a reset starts from. -/
def initS : FVec Ideal S1024x1 .f32 × FVec Ideal S1024x1 .f32 × FVec Ideal S1024x1024 .f32 :=
  (k1_pay4 (F := Ideal), k1_pay5 (F := Ideal), k1_pay6 (F := Ideal))

/-- Row r of the reset state at feature d is the scalar start triple. -/
theorem initS_row (r d : Fin 1024) :
    (initS.1 (ix2 r (0 : Fin 1)), initS.2.1 (ix2 r (0 : Fin 1)), initS.2.2 (ix2 r d)) = ((⊥ : EReal), (0 : EReal), (0 : EReal)) := by
  unfold initS
  rw [Prod.mk.injEq, Prod.mk.injEq]
  exact ⟨pay4_apply r, pay5_apply r, pay6_apply r d⟩

/-- Row r of the updated state at feature d is the scalar update of row r of the old state, with the block's scores of row r,
    its keep factors and the value rows' feature d. -/
theorem stepS_row (s : FVec Ideal S1024x1 .f32 × FVec Ideal S1024x1 .f32 × FVec Ideal S1024x1024 .f32) (st : EReal × EReal × EReal)
    (r d : Fin 1024) (hs : (s.1 (ix2 r (0 : Fin 1)), s.2.1 (ix2 r (0 : Fin 1)), s.2.2 (ix2 r d)) = st) :
    ((stepS x0 x1 x2 x3 s).1 (ix2 r (0 : Fin 1)), (stepS x0 x1 x2 x3 s).2.1 (ix2 r (0 : Fin 1)), (stepS x0 x1 x2 x3 s).2.2 (ix2 r d))
      = step st (fun jj : Fin 1024 => ∑ dd : Fin 1024, (x0 (ix2 r dd) : EReal) * (x1 (ix2 jj dd) : EReal)) (fun jj => keepE (x3 (ix2 r jj))) (fun jj => (x2 (ix2 jj d) : EReal)) := by
  subst hs
  have h8 : (fun jj : Fin 1024 => k1_pay8 (F := Ideal) x0 x1 (ix2 r jj)) = fun jj => ∑ dd : Fin 1024, (x0 (ix2 r dd) : EReal) * (x1 (ix2 jj dd) : EReal) :=
    funext fun jj => pay8_apply x0 x1 r jj
  have h9 : k1_pay9 (F := Ideal) x0 x1 s.1 (ix2 r (0 : Fin 1))
      = max (s.1 (ix2 r (0 : Fin 1))) (rowMax fun jj : Fin 1024 => ∑ dd : Fin 1024, (x0 (ix2 r dd) : EReal) * (x1 (ix2 jj dd) : EReal)) := by
    rw [pay9_apply, h8]
  have h11 : ∀ jj : Fin 1024, k1_pay11 (F := Ideal) x0 x1 s.1 (ix2 r jj)
      = Ideal.exp ((∑ dd : Fin 1024, (x0 (ix2 r dd) : EReal) * (x1 (ix2 jj dd) : EReal)) - max (s.1 (ix2 r (0 : Fin 1))) (rowMax fun jj : Fin 1024 => ∑ dd : Fin 1024, (x0 (ix2 r dd) : EReal) * (x1 (ix2 jj dd) : EReal))) :=
    fun jj => by rw [pay11_apply, pay8_apply, h9]
  unfold stepS step
  rw [Prod.mk.injEq, Prod.mk.injEq]
  refine ⟨?_, ?_, ?_⟩
  · show k1_pay2 (F := Ideal) (k1_pay9 (F := Ideal) x0 x1 s.1) (ix2 r (0 : Fin 1)) = _
    unfold k1_pay2
    show shapeCast S1024x1 (k1_pay9 (F := Ideal) x0 x1 s.1) shapeCasts_S1024x1_S1024x1 (ix2 r (0 : Fin 1)) = _
    rw [shapeCast_self]
    exact h9
  · show k1_pay12 (F := Ideal) x0 x1 s.1 s.2.1 (ix2 r (0 : Fin 1)) = _
    rw [pay12_apply, pay10_apply, h9]
    exact congrArg (_ + ·) (Finset.sum_congr rfl fun jj _ => h11 jj)
  · show k1_pay1 (F := Ideal) (k1_pay7 (F := Ideal) x2) (k1_pay10 (F := Ideal) x0 x1 s.1) (k1_pay13 (F := Ideal) x0 x1 s.1 x3) s.2.2 (ix2 r d) = _
    rw [pay1_apply, pay10_apply, h9]
    exact congrArg (_ + ·) (Finset.sum_congr rfl fun jj _ => by rw [pay13_apply, h11 jj])

/-- The same with the block's scores, keep factors and value entries given by name. -/
theorem stepS_row' (s : FVec Ideal S1024x1 .f32 × FVec Ideal S1024x1 .f32 × FVec Ideal S1024x1024 .f32) (st : EReal × EReal × EReal)
    (r d : Fin 1024) (hs : (s.1 (ix2 r (0 : Fin 1)), s.2.1 (ix2 r (0 : Fin 1)), s.2.2 (ix2 r d)) = st)
    (σ κ ν : Fin 1024 → EReal)
    (h1 : ∀ jj : Fin 1024, (∑ dd : Fin 1024, (x0 (ix2 r dd) : EReal) * (x1 (ix2 jj dd) : EReal)) = σ jj)
    (h2 : ∀ jj : Fin 1024, keepE (x3 (ix2 r jj)) = κ jj) (h3 : ∀ jj : Fin 1024, (x2 (ix2 jj d) : EReal) = ν jj) :
    ((stepS x0 x1 x2 x3 s).1 (ix2 r (0 : Fin 1)), (stepS x0 x1 x2 x3 s).2.1 (ix2 r (0 : Fin 1)), (stepS x0 x1 x2 x3 s).2.2 (ix2 r d))
      = step st σ κ ν := by
  rw [stepS_row x0 x1 x2 x3 s st r d hs, show (fun jj : Fin 1024 => ∑ dd : Fin 1024, (x0 (ix2 r dd) : EReal) * (x1 (ix2 jj dd) : EReal)) = σ from funext h1,
    show (fun jj : Fin 1024 => keepE (x3 (ix2 r jj))) = κ from funext h2, show (fun jj : Fin 1024 => (x2 (ix2 jj d) : EReal)) = ν from funext h3]

end Cert.KernelIdeal.Val

end
-- ==== Proof.AttnValue.lean ====
/-
  What the attention region leaves in its output array, as a whole-array function of the arrays it finds.

  Point t = 8 q + k of the region's 64 points stages query rows 1024 q .. 1024 q + 1023, key and value rows 1024 k .. 1024 k + 1023 and the
  (q, k) block of the noise array. Read at row r and value feature d the three scratch buffers hold, after point t, the running
  triple of the online softmax of query row 1024 q + r after key blocks 0 .. k: the point k = 0 starts from the reset values, every
  later point from what the point before left. At k = 7 the output block is the normalised numerator through the output weights,
  written back as rows 1024 q .. 1024 q + 1023: so entry (i, o) of the output array is the block arrangement of the attention at
  row i, feature o.
-/
import proofs.«155470_j14800457302355_2_alg».proof.Proof.AttnPiecesI
import proofs.«155470_j14800457302355_2_alg».proof.Proof.AttnMath

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Cert.AttnSpec Cert.OnlineSoftmax
open Idealize.ShloMosaic.Pipeline (Dat)

variable (V : (c : Dev nD) → (b : Ref sig .tc) → Buf (Elt Ideal) ((c : Thread nD τ).loc b))

theorem hza : (![0, 0] : Fin 2 → ℕ) = fun _ => 0 := funext fun a => by fin_cases a <;> rfl

/-- The block indices of the region's windows, decided over its 64 points. -/
theorem idx1_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = t.val % 8
    ∧ win1_4.index t (0 : Fin 2) = 0 ∧ win1_4.index t (1 : Fin 2) = 0
    ∧ win1_5.index t (0 : Fin 2) = t.val / 8 ∧ win1_5.index t (1 : Fin 2) = 0 ∧ t.val < 64 :=
  (by decide +kernel : ∀ t : Fin grid1.N, _)

theorem col_val (k : ℕ) (hk : k < 8) (jj : Fin 1024) : (col k jj).val = k * 1024 + jj.val := by
  show (k % 8) * 1024 + jj.val = _; rw [Nat.mod_eq_of_lt hk]

/-- The windows' blocks at point t, read at an index. -/
theorem qblk_apply (c : Dev nD) (t : Fin cfg1.N) (r dd : Fin 1024) :
    iblk1 V c 0 t (ix2 r dd) = V c main_v4_0 (ix2 (col (t.val / 8) r) dd) := by
  obtain ⟨e0, e1, -, -, -, -, -, -, -, -, -, -, hlt⟩ := idx1_facts t
  show V c main_v4_0 (((cfg1.win 0).blk t).view.emb (ix2 r dd)) = _
  refine congrArg (V c main_v4_0) (funext fun a => Fin.ext ?_)
  have hc := col_val (t.val / 8) (by omega) r
  match a with
  | ⟨0, _⟩ => show win1_0.index t (0 : Fin 2) * 1024 + 1 * r.val = (col (t.val / 8) r).val; omega
  | ⟨1, _⟩ => show win1_0.index t (1 : Fin 2) * 1024 + 1 * dd.val = dd.val; omega
theorem kblk_apply (c : Dev nD) (t : Fin cfg1.N) (jj dd : Fin 1024) :
    iblk1 V c 1 t (ix2 jj dd) = V c main_v4_1 (ix2 (col (t.val % 8) jj) dd) := by
  obtain ⟨-, -, e0, e1, -, -, -, -, -, -, -, -, hlt⟩ := idx1_facts t
  show V c main_v4_1 (((cfg1.win 1).blk t).view.emb (ix2 jj dd)) = _
  refine congrArg (V c main_v4_1) (funext fun a => Fin.ext ?_)
  have hc := col_val (t.val % 8) (Nat.mod_lt _ (by decide)) jj
  match a with
  | ⟨0, _⟩ => show win1_1.index t (0 : Fin 2) * 1024 + 1 * jj.val = (col (t.val % 8) jj).val; omega
  | ⟨1, _⟩ => show win1_1.index t (1 : Fin 2) * 1024 + 1 * dd.val = dd.val; omega
theorem vblk_apply (c : Dev nD) (t : Fin cfg1.N) (jj d : Fin 1024) :
    iblk1 V c 2 t (ix2 jj d) = V c main_v4_2 (ix2 (col (t.val % 8) jj) d) := by
  obtain ⟨-, -, -, -, e0, e1, -, -, -, -, -, -, hlt⟩ := idx1_facts t
  show V c main_v4_2 (((cfg1.win 2).blk t).view.emb (ix2 jj d)) = _
  refine congrArg (V c main_v4_2) (funext fun a => Fin.ext ?_)
  have hc := col_val (t.val % 8) (Nat.mod_lt _ (by decide)) jj
  match a with
  | ⟨0, _⟩ => show win1_2.index t (0 : Fin 2) * 1024 + 1 * jj.val = (col (t.val % 8) jj).val; omega
  | ⟨1, _⟩ => show win1_2.index t (1 : Fin 2) * 1024 + 1 * d.val = d.val; omega
theorem ublk_apply (c : Dev nD) (t : Fin cfg1.N) (r jj : Fin 1024) :
    iblk1 V c 3 t (ix2 r jj) = V c main_arg5 (ix2 (col (t.val / 8) r) (col (t.val % 8) jj)) := by
  obtain ⟨-, -, -, -, -, -, e0, e1, -, -, -, -, hlt⟩ := idx1_facts t
  show V c main_arg5 (((cfg1.win 3).blk t).view.emb (ix2 r jj)) = _
  refine congrArg (V c main_arg5) (funext fun a => Fin.ext ?_)
  have hc := col_val (t.val / 8) (by omega) r
  have hc' := col_val (t.val % 8) (Nat.mod_lt _ (by decide)) jj
  match a with
  | ⟨0, _⟩ => show win1_3.index t (0 : Fin 2) * 1024 + 1 * r.val = (col (t.val / 8) r).val; omega
  | ⟨1, _⟩ => show win1_3.index t (1 : Fin 2) * 1024 + 1 * jj.val = (col (t.val % 8) jj).val; omega
theorem woblk_apply (c : Dev nD) (t : Fin cfg1.N) (o d : Fin 1024) :
    iblk1 V c 4 t (ix2 o d) = V c main_v3 (ix2 o d) := by
  obtain ⟨-, -, -, -, -, -, -, -, e0, e1, -, -, hlt⟩ := idx1_facts t
  show V c main_v3 (((cfg1.win 4).blk t).view.emb (ix2 o d)) = _
  refine congrArg (V c main_v3) (funext fun a => Fin.ext ?_)
  match a with
  | ⟨0, _⟩ => show win1_4.index t (0 : Fin 2) * 1024 + 1 * o.val = o.val; omega
  | ⟨1, _⟩ => show win1_4.index t (1 : Fin 2) * 1024 + 1 * d.val = d.val; omega

/-- The scratch contents each case leaves are one update of the carried state. -/
theorem at1_A_snd (c : Dev nD) (t : Fin cfg1.N) (h0 : t.val % 8 = 0) (h1 : ¬t.val % 8 = 7) :
    (at1_A V c t h0 h1).2 = stepS (iblk1 V c 0 t) (iblk1 V c 1 t) (iblk1 V c 2 t) (iblk1 V c 3 t) initS := by
  unfold at1_A stepS initS
  rw [sout1_A_0_eq, sout1_A_1_eq, sout1_A_2_eq]
theorem at1_B_snd (c : Dev nD) (t : Fin cfg1.N) (h0 : ¬t.val % 8 = 0) (h1 : ¬t.val % 8 = 7)
    (p : FVec Ideal S1024x1 .f32 × FVec Ideal S1024x1 .f32 × FVec Ideal S1024x1024 .f32) :
    (at1_B V c t h0 h1 p).2 = stepS (iblk1 V c 0 t) (iblk1 V c 1 t) (iblk1 V c 2 t) (iblk1 V c 3 t) p := by
  unfold at1_B stepS
  rw [sout1_B_0_eq, sout1_B_1_eq, sout1_B_2_eq]
theorem at1_C_snd (c : Dev nD) (t : Fin cfg1.N) (h0 : ¬t.val % 8 = 0) (h1 : t.val % 8 = 7)
    (p : FVec Ideal S1024x1 .f32 × FVec Ideal S1024x1 .f32 × FVec Ideal S1024x1024 .f32) :
    (at1_C V c t h0 h1 p).2 = stepS (iblk1 V c 0 t) (iblk1 V c 1 t) (iblk1 V c 2 t) (iblk1 V c 3 t) p := by
  unfold at1_C stepS
  rw [sout1_C_0_eq, sout1_C_1_eq, sout1_C_2_eq]
/-- The output block the last case stores is the epilogue of the updated state. -/
theorem at1_C_fst (c : Dev nD) (t : Fin cfg1.N) (h0 : ¬t.val % 8 = 0) (h1 : t.val % 8 = 7)
    (p : FVec Ideal S1024x1 .f32 × FVec Ideal S1024x1 .f32 × FVec Ideal S1024x1024 .f32) :
    (at1_C V c t h0 h1 p).1 = k1_pay3 (stepS (iblk1 V c 0 t) (iblk1 V c 1 t) (iblk1 V c 2 t) (iblk1 V c 3 t) p).2.2
      (stepS (iblk1 V c 0 t) (iblk1 V c 1 t) (iblk1 V c 2 t) (iblk1 V c 3 t) p).2.1 (iblk1 V c 4 t) := by
  unfold at1_C stepS
  rw [out1_C_5_eq]

/-- The scores, keep factors and value entries of query row i against the key blocks. -/
abbrev sigOf (c : Dev nD) (i : Fin 8192) : ℕ → Fin 1024 → EReal := fun k jj => score (V c main_v4_0) (V c main_v4_1) i (col k jj)
abbrev kapOf (c : Dev nD) (i : Fin 8192) : ℕ → Fin 1024 → EReal := fun k jj => keepE (V c main_arg5 (ix2 i (col k jj)))
abbrev nuOf (c : Dev nD) (d : Fin 1024) : ℕ → Fin 1024 → EReal := fun k jj => V c main_v4_2 (ix2 (col k jj) d)

/-- One point's update, with the point's blocks read off the arrays. -/
theorem step_at (c : Dev nD) (t : Fin cfg1.N) (s : FVec Ideal S1024x1 .f32 × FVec Ideal S1024x1 .f32 × FVec Ideal S1024x1024 .f32)
    (st : EReal × EReal × EReal) (r d : Fin 1024) (hs : (s.1 (ix2 r (0 : Fin 1)), s.2.1 (ix2 r (0 : Fin 1)), s.2.2 (ix2 r d)) = st) :
    ((stepS (iblk1 V c 0 t) (iblk1 V c 1 t) (iblk1 V c 2 t) (iblk1 V c 3 t) s).1 (ix2 r (0 : Fin 1)),
     (stepS (iblk1 V c 0 t) (iblk1 V c 1 t) (iblk1 V c 2 t) (iblk1 V c 3 t) s).2.1 (ix2 r (0 : Fin 1)),
     (stepS (iblk1 V c 0 t) (iblk1 V c 1 t) (iblk1 V c 2 t) (iblk1 V c 3 t) s).2.2 (ix2 r d))
      = step st (sigOf V c (col (t.val / 8) r) (t.val % 8)) (kapOf V c (col (t.val / 8) r) (t.val % 8)) (nuOf V c d (t.val % 8)) := by
  refine stepS_row' _ _ _ _ s st r d hs _ _ _ (fun jj => ?_) (fun jj => ?_) (fun jj => ?_)
  · show _ = score (V c main_v4_0) (V c main_v4_1) (col (t.val / 8) r) (col (t.val % 8) jj)
    unfold score
    exact Finset.sum_congr rfl fun dd _ => by rw [qblk_apply, kblk_apply]
  · show keepE _ = keepE _
    rw [ublk_apply]
  · exact vblk_apply V c t jj d

/-- THE INVARIANT: after position n the scratch buffers hold, at row r and feature d, the running triple of query row
    1024 (n / 8) + r after key blocks 0 .. n % 8. -/
theorem state_at (c : Dev nD) (r d : Fin 1024) : ∀ (n : ℕ) (hn : n < cfg1.N),
    ((outsAt1 V c n hn).2.1 (ix2 r (0 : Fin 1)), (outsAt1 V c n hn).2.2.1 (ix2 r (0 : Fin 1)), (outsAt1 V c n hn).2.2.2 (ix2 r d))
      = run (sigOf V c (col (n / 8) r)) (kapOf V c (col (n / 8) r)) (nuOf V c d) (n % 8 + 1) := by
  intro n
  induction n with
  | zero =>
    intro hn
    have h := outsAt1_A V c ⟨0, hn⟩ (Nat.zero_mod _) (show ¬ (0 % 8 = 7) by decide)
    rw [show outsAt1 V c 0 hn = at1_A V c ⟨0, hn⟩ (Nat.zero_mod _) (show ¬ (0 % 8 = 7) by decide) from h, at1_A_snd]
    exact step_at V c ⟨0, hn⟩ initS _ r d (initS_row r d)
  | succ n ih =>
    intro hn
    have hN : n + 1 < 64 := lt_of_lt_of_eq hn (show cfg1.N = 64 from N_1)
    have ih' := ih (Nat.lt_of_succ_lt hn)
    by_cases h0 : (n + 1) % 8 = 0
    · have h1 : ¬ (n + 1) % 8 = 7 := by omega
      rw [show outsAt1 V c (n + 1) hn = at1_A V c ⟨n + 1, hn⟩ h0 h1 from outsAt1_A V c ⟨n + 1, hn⟩ h0 h1, at1_A_snd]
      have := step_at V c ⟨n + 1, hn⟩ initS _ r d (initS_row r d)
      rw [this]
      show step ((⊥ : EReal), (0 : EReal), (0 : EReal)) _ _ _ = run _ _ _ ((n + 1) % 8 + 1)
      rw [h0]
      rfl
    · have hq : (n + 1) / 8 = n / 8 := by omega
      have hk : (n + 1) % 8 = n % 8 + 1 := by omega
      by_cases h1 : (n + 1) % 8 = 7
      · rw [show outsAt1 V c (n + 1) hn = at1_C V c ⟨n + 1, hn⟩ h0 h1 (outsAt1 V c n (Nat.lt_of_succ_lt hn)).2 from outsAt1_C V c ⟨n + 1, hn⟩ h0 h1, at1_C_snd]
        have := step_at V c ⟨n + 1, hn⟩ (outsAt1 V c n (Nat.lt_of_succ_lt hn)).2 _ r d ih'
        rw [this]
        show step (run _ _ _ (n % 8 + 1)) (sigOf V c (col ((n + 1) / 8) r) ((n + 1) % 8)) (kapOf V c (col ((n + 1) / 8) r) ((n + 1) % 8)) (nuOf V c d ((n + 1) % 8)) = run (sigOf V c (col ((n + 1) / 8) r)) (kapOf V c (col ((n + 1) / 8) r)) (nuOf V c d) ((n + 1) % 8 + 1)
        rw [hq, hk]
        rfl
      · rw [show outsAt1 V c (n + 1) hn = at1_B V c ⟨n + 1, hn⟩ h0 h1 (outsAt1 V c n (Nat.lt_of_succ_lt hn)).2 from outsAt1_B V c ⟨n + 1, hn⟩ h0 h1, at1_B_snd]
        have := step_at V c ⟨n + 1, hn⟩ (outsAt1 V c n (Nat.lt_of_succ_lt hn)).2 _ r d ih'
        rw [this]
        show step (run _ _ _ (n % 8 + 1)) (sigOf V c (col ((n + 1) / 8) r) ((n + 1) % 8)) (kapOf V c (col ((n + 1) / 8) r) ((n + 1) % 8)) (nuOf V c d ((n + 1) % 8)) = run (sigOf V c (col ((n + 1) / 8) r)) (kapOf V c (col ((n + 1) / 8) r)) (nuOf V c d) ((n + 1) % 8 + 1)
        rw [hq, hk]
        rfl

/-- The whole-array function the output array ends at. -/
def attnArr (c : Dev nD) : S8192x1024.Idx → EReal := fun idx =>
  attnOnlineAt (V c main_v4_0) (V c main_v4_1) (V c main_v4_2) (V c main_arg5) (V c main_v3) (idx 0) (idx 1)

/-- What a point with k = 7 writes back is its block of the whole-array function. -/
theorem flushed1_5_eq (c : Dev nD) (t : Fin cfg1.N) (hf : (cfg1.win 5).flush t = true) :
    (dat1 V c).flushed 5 t = ((cfg1.win 5).blk t).view.read (Elt Ideal) (attnArr V c) := by
  have h7 : t.val % 8 = 7 := (flush1_5 t).mp hf
  have h0 : ¬ t.val % 8 = 0 := by omega
  obtain ⟨-, -, -, -, -, -, -, -, -, -, f0, f1, hlt⟩ := idx1_facts t
  show (cfg1.win 5).cut (grid1.coords t) ((dat1 V c).after 5 t) = _
  rw [after1_5, outsAt1_C V c t h0 h7, at1_C_fst]
  funext j
  obtain ⟨r, o, rfl⟩ : ∃ (r : Fin 1024) (o : Fin 1024), j = ix2 r o := ⟨j 0, j 1, eq_ix2 j⟩
  refine (pay3_apply _ _ _ r o).trans ?_
  have hemb : ((cfg1.win 5).blk t).view.emb (ix2 r o) = ix2 (col (t.val / 8) r) o := by
    funext a; apply Fin.ext
    have hc := col_val (t.val / 8) (by omega) r
    match a with
    | ⟨0, _⟩ => show win1_5.index t (0 : Fin 2) * 1024 + 1 * r.val = (col (t.val / 8) r).val; omega
    | ⟨1, _⟩ => show win1_5.index t (1 : Fin 2) * 1024 + 1 * o.val = o.val; omega
  show _ = attnArr V c (((cfg1.win 5).blk t).view.emb (ix2 r o))
  rw [hemb]
  show _ = attnOnlineAt (V c main_v4_0) (V c main_v4_1) (V c main_v4_2) (V c main_arg5) (V c main_v3) (col (t.val / 8) r) o
  unfold attnOnlineAt
  refine Finset.sum_congr rfl fun d _ => ?_
  -- the state this point leaves is the update of what the point before left: the invariant at this position
  have hst := state_at V c r d t.val t.isLt
  rw [outsAt1_C V c t h0 h7, at1_C_snd] at hst
  rw [Prod.mk.injEq, Prod.mk.injEq] at hst
  obtain ⟨-, hl, ha⟩ := hst
  rw [ha, hl, woblk_apply, h7]

theorem mem_blk1_5 (t : Fin cfg1.N) (i : S8192x1024.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v5).slice (win1_5.rect t)).set ↔ _
  rw [View.set_slice_whole, Rect.mem_set_unit]
  exact Iff.rfl

/-- Every entry of the output array lies in the block some point with k = 7 writes back. -/
theorem cover1_5' (i : S8192x1024.Idx) : ∃ t : Fin cfg1.N, (cfg1.win 5).flush t = true ∧ i ∈ ((cfg1.win 5).blk t).view.set := by
  have hi0 : (i 0).val < 8192 := (i 0).isLt
  have hi1 : (i 1).val < 1024 := (i 1).isLt
  have hN : cfg1.N = 64 := N_1
  let t : Fin cfg1.N := ⟨8 * ((i 0).val / 1024) + 7, by rw [hN]; omega⟩
  have htv : t.val = 8 * ((i 0).val / 1024) + 7 := rfl
  refine ⟨t, (flush1_5 t).mpr (by omega), ?_⟩
  obtain ⟨-, -, -, -, -, -, -, -, -, -, f0, f1, hlt⟩ := idx1_facts t
  rw [mem_blk1_5]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 1024 ≤ (i 1).val ∧ (i 1).val < win1_5.index t (1 : Fin 2) * 1024 + 1024; omega

/-- The output array after the region. -/
theorem final1_5 (c : Dev nD) : (dat1 V c).arrAt 5 cfg1.N = attnArr V c :=
  (dat1 V c).arrAt_eq_of_cover 5 _ (fun t hf => flushed1_5_eq V c t hf) cover1_5'

end Cert.KernelIdeal.Val

end
-- ==== Proof.KernelValue.lean ====
/-
  The idealized kernel program's result, as one function of its argument arrays.

  The four host operations only change the weights' format, which is the identity on the extended reals. The projection region
  leaves the scaled queries, the keys and the values in its three output arrays; the attention region reads them, the noise array and
  the output weights, and leaves the block arrangement of the attention in the result array.
-/
import proofs.«155470_j14800457302355_2_alg».proof.Proof.FrameRunI
import proofs.«155470_j14800457302355_2_alg».proof.Proof.QkvValue
import proofs.«155470_j14800457302355_2_alg».proof.Proof.AttnValue
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Cert.AttnSpec Idealize.SL.Sem
open Idealize.ShloMosaic.Pipeline (Dat)

variable (m : (ℓ : Loc nD τ sig) → Buf (Elt Ideal) ℓ) (ρ : Dev nD → PrngReg)

/-- The host operations write none of the arguments. -/
theorem V1_arg0 (c : Dev nD) : V1 m ρ c main_arg0 = m ((c : Thread nD τ).loc main_arg0) :=
  (show W1 m ρ c (Proc.devRef .tc main_arg0) = W0 m ρ c (Proc.devRef .tc main_arg0) from StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_arg5 (c : Dev nD) : V1 m ρ c main_arg5 = m ((c : Thread nD τ).loc main_arg5) :=
  (show W1 m ρ c (Proc.devRef .tc main_arg5) = W0 m ρ c (Proc.devRef .tc main_arg5) from StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The weights in the narrower format are the weights. -/
theorem V1_v0 (c : Dev nD) : (V1 m ρ c main_v0 : S1024x1024.Idx → EReal) = (m ((c : Thread nD τ).loc main_arg1) : S1024x1024.Idx → EReal) := by
  show StableHlo.after hostOps0 (W0 m ρ c) (Proc.devRef .tc main_v0) = _
  after_results
  rfl
theorem V1_v1 (c : Dev nD) : (V1 m ρ c main_v1 : S1024x1024.Idx → EReal) = (m ((c : Thread nD τ).loc main_arg2) : S1024x1024.Idx → EReal) := by
  show StableHlo.after hostOps0 (W0 m ρ c) (Proc.devRef .tc main_v1) = _
  after_results
  rfl
theorem V1_v2 (c : Dev nD) : (V1 m ρ c main_v2 : S1024x1024.Idx → EReal) = (m ((c : Thread nD τ).loc main_arg3) : S1024x1024.Idx → EReal) := by
  show StableHlo.after hostOps0 (W0 m ρ c) (Proc.devRef .tc main_v2) = _
  after_results
  rfl
theorem V1_v3 (c : Dev nD) : (V1 m ρ c main_v3 : S1024x1024.Idx → EReal) = (m ((c : Thread nD τ).loc main_arg4) : S1024x1024.Idx → EReal) := by
  show StableHlo.after hostOps0 (W0 m ρ c) (Proc.devRef .tc main_v3) = _
  after_results
  rfl

/-- What the attention region finds in its arrays. -/
theorem V2_q (c : Dev nD) : (V2 m ρ c main_v4_0 : S8192x1024.Idx → EReal) = qArr (m ((c : Thread nD τ).loc main_arg0)) (m ((c : Thread nD τ).loc main_arg2)) := by
  show W2 m ρ c (Proc.devRef .tc (Pipeline.arrRef spec0 4)) = _
  rw [W2_arr, final0_4 (V1 m ρ) c, V1_arg0, V1_v1]
theorem V2_k (c : Dev nD) : (V2 m ρ c main_v4_1 : S8192x1024.Idx → EReal) = projArr (m ((c : Thread nD τ).loc main_arg0)) (m ((c : Thread nD τ).loc main_arg1)) := by
  show W2 m ρ c (Proc.devRef .tc (Pipeline.arrRef spec0 5)) = _
  rw [W2_arr, final0_5 (V1 m ρ) c, V1_arg0, V1_v0]
theorem V2_v (c : Dev nD) : (V2 m ρ c main_v4_2 : S8192x1024.Idx → EReal) = projArr (m ((c : Thread nD τ).loc main_arg0)) (m ((c : Thread nD τ).loc main_arg3)) := by
  show W2 m ρ c (Proc.devRef .tc (Pipeline.arrRef spec0 6)) = _
  rw [W2_arr, final0_6 (V1 m ρ) c, V1_arg0, V1_v2]
theorem V2_u (c : Dev nD) : V2 m ρ c main_arg5 = m ((c : Thread nD τ).loc main_arg5) :=
  (W2_of_ne m ρ c main_arg5 (by decide)).trans (V1_arg5 m ρ c)
theorem V2_wo (c : Dev nD) : (V2 m ρ c main_v3 : S1024x1024.Idx → EReal) = (m ((c : Thread nD τ).loc main_arg4) : S1024x1024.Idx → EReal) :=
  (W2_of_ne m ρ c main_v3 (by decide)).trans (V1_v3 m ρ c)

/-- The result array after the run. -/
theorem W3_result (c : Dev nD) :
    (W3 m ρ c (Proc.devRef .tc main_v5) : S8192x1024.Idx → EReal)
      = onlineSpec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  show W3 m ρ c (Proc.devRef .tc (Pipeline.arrRef spec1 5)) = _
  rw [W3_arr, final1_5 (V2 m ρ) c]
  unfold attnArr onlineSpec
  rw [V2_q, V2_k, V2_v, V2_u, V2_wo]

/-- Every weakly fair execution of the idealized kernel program terminates with the result array at the block arrangement of
    the arguments and the arguments unchanged. -/
theorem run : θ_run defs (onTc (τ := τ) (main (F := Ideal))) ⟨m, fun _ => 0, ρ⟩ (fun r => ∀ c : Dev nD,
      r.2.mem ((c.tc : Thread nD τ).loc main_v5) = onlineSpec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v5 (by decide))).trans (W3_result m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Val

end
-- ==== Proof.RefValue.lean ====
/-
  The reference program's result, read element by element, is the one-pass arrangement of the specification.

  The program forms the keys, the scaled queries and the values as matrix products with transposed weights, the scores as
  the product of the queries with the transposed keys, then the softmax of each score row: the row maximum from minus
  infinity, the exponentials of the shifted scores, their sum from zero, the quotient. Each softmax weight is multiplied by
  the keep factor of the noise entry, the weighted value rows are summed, and the result goes through the output weights.
  Reading each operation at an index built from its coordinates gives the specification's sums term by term.
-/
import proofs.«155470_j14800457302355_2_alg».proof.Proof.Gen.ReferenceIdeal.Read
import proofs.«155470_j14800457302355_2_alg».proof.Proof.Spec
import proofs.«155470_j14800457302355_2_alg».proof.Proof.LibIndex

noncomputable section

namespace Cert.ReferenceIdeal.RefValue

open Cert.ReferenceIdeal Cert.ReferenceIdeal.Gen Cert.ReferenceIdeal.Read Cert.AttnSpec Cert.OnlineSoftmax
open Idealize.ShloMosaic Idealize.ShloMosaic.ValueIdx Idealize.SL.Sem

/-- Contents of the three kinds of argument. -/
abbrev CX : Type := (⟨Cert.ReferenceIdeal.S8192x1024, .f32⟩ : BufTy).Contents (Elt Ideal)
abbrev CW : Type := (⟨Cert.ReferenceIdeal.S1024x1024, .f32⟩ : BufTy).Contents (Elt Ideal)
abbrev CU : Type := (⟨Cert.ReferenceIdeal.S8192x8192, .f32⟩ : BufTy).Contents (Elt Ideal)

/-- A product with a transposed weight matrix, at (i, d), is the projection of row i at feature d. -/
theorem v1_at (x0 : CX) (x1 : CW) (i : Fin 8192) (d : Fin 1024) :
    val_main_v1 (F := Ideal) x0 x1 (ix2 i d) = proj x0 x1 i d := by
  rw [val_main_v1_apply]
  unfold proj
  refine Finset.sum_congr rfl fun k _ => ?_
  rw [val_main_v0_apply]
  have e1 : lidx_main_v1 (ix2 i d) k = ix2 i k :=
    funext fun a => Fin.ext (by match a with | ⟨0, _⟩ => rfl | ⟨1, _⟩ => rfl)
  have e2 : idx_main_v0 (ridx_main_v1 (ix2 i d) k) = ix2 d k :=
    funext fun a => Fin.ext (by match a with | ⟨0, _⟩ => rfl | ⟨1, _⟩ => rfl)
  rw [e1, e2]

theorem v3_at (x0 : CX) (x2 : CW) (i : Fin 8192) (d : Fin 1024) :
    val_main_v3 (F := Ideal) x0 x2 (ix2 i d) = proj x0 x2 i d := by
  rw [val_main_v3_apply]
  unfold proj
  refine Finset.sum_congr rfl fun k _ => ?_
  rw [val_main_v2_apply]
  have e1 : lidx_main_v3 (ix2 i d) k = ix2 i k :=
    funext fun a => Fin.ext (by match a with | ⟨0, _⟩ => rfl | ⟨1, _⟩ => rfl)
  have e2 : idx_main_v2 (ridx_main_v3 (ix2 i d) k) = ix2 d k :=
    funext fun a => Fin.ext (by match a with | ⟨0, _⟩ => rfl | ⟨1, _⟩ => rfl)
  rw [e1, e2]

theorem v7_at (x0 : CX) (x3 : CW) (i : Fin 8192) (d : Fin 1024) :
    val_main_v7 (F := Ideal) x0 x3 (ix2 i d) = proj x0 x3 i d := by
  rw [val_main_v7_apply]
  unfold proj
  refine Finset.sum_congr rfl fun k _ => ?_
  rw [val_main_v6_apply]
  have e1 : lidx_main_v7 (ix2 i d) k = ix2 i k :=
    funext fun a => Fin.ext (by match a with | ⟨0, _⟩ => rfl | ⟨1, _⟩ => rfl)
  have e2 : idx_main_v6 (ridx_main_v7 (ix2 i d) k) = ix2 d k :=
    funext fun a => Fin.ext (by match a with | ⟨0, _⟩ => rfl | ⟨1, _⟩ => rfl)
  rw [e1, e2]

/-- The scaled queries. -/
theorem v5_at (x0 : CX) (x2 : CW) (i : Fin 8192) (d : Fin 1024) :
    val_main_v5 (F := Ideal) x0 x2 (ix2 i d) = qArr x0 x2 (ix2 i d) := by
  rw [val_main_v5_apply, v3_at, val_main_v4_apply, val_main_cst_apply]
  rfl

/-- The scores. -/
theorem v9_at (x0 : CX) (x1 x2 : CW) (i j : Fin 8192) :
    val_main_v9 (F := Ideal) x0 x1 x2 (ix2 i j) = score (qArr x0 x2) (projArr x0 x1) i j := by
  rw [val_main_v9_apply]
  unfold score
  refine Finset.sum_congr rfl fun k _ => ?_
  rw [val_main_v8_apply]
  have e1 : lidx_main_v9 (ix2 i j) k = ix2 i k :=
    funext fun a => Fin.ext (by match a with | ⟨0, _⟩ => rfl | ⟨1, _⟩ => rfl)
  have e2 : idx_main_v8 (ridx_main_v9 (ix2 i j) k) = ix2 j k :=
    funext fun a => Fin.ext (by match a with | ⟨0, _⟩ => rfl | ⟨1, _⟩ => rfl)
  rw [e1, e2, v5_at, v1_at]
  rfl

/-- The row maximum, from minus infinity and against minus infinity once more. -/
theorem v12_at (x0 : CX) (x1 x2 : CW) (i : Fin 8192) :
    val_main_v12 (F := Ideal) x0 x1 x2 (ix1 i)
      = max ⊥ (rowMax fun j => score (qArr x0 x2) (projArr x0 x1) i j) := by
  have hbot : Ideal.ofBits .f32 0xFF800000#32 = ⊥ := by simp [Ideal.ofBits, Ideal.ieee]
  have h10 : val_main_v10 (F := Ideal) x0 x1 x2 (ix1 i)
      = rowMax fun j => score (qArr x0 x2) (projArr x0 x1) i j := by
    unfold val_main_v10
    have hr : S8192x8192.Reduces [(1 : Fin 2)] S8192 := by decide
    rw [Host.reduce_eq_fold_single (FloatOps.maximumf (F := Ideal) (φ := .f32)) _ _ _ hr _, val_main_cst_0_apply]
    have hf : (val_main_v9 (F := Ideal) x0 x1 x2 ∘ hr.lift (ix1 i))
        = fun j : Fin 8192 => score (qArr x0 x2) (projArr x0 x1) i j :=
      funext fun k => by
        show val_main_v9 (F := Ideal) x0 x1 x2 (hr.lift (ix1 i) k) = _
        rw [Cert.LayoutLib.lift_row hr i k]
        exact v9_at x0 x1 x2 i k
    show Finset.fold max (Ideal.ofBits .f32 0xFF800000#32)
        (val_main_v9 (F := Ideal) x0 x1 x2 ∘ hr.lift (ix1 i)) (Finset.univ : Finset (Fin 8192)) = _
    rw [hbot, hf]
    rfl
  rw [val_main_v12_apply, val_main_v11_apply, val_main_cst_1_apply, h10]
  show max (Ideal.ofBits .f32 0xFF800000#32) _ = _
  rw [hbot]

/-- The exponential of the shifted score. -/
theorem v16_at (x0 : CX) (x1 x2 : CW) (i j : Fin 8192) :
    val_main_v16 (F := Ideal) x0 x1 x2 (ix2 i j)
      = Ideal.exp (score (qArr x0 x2) (projArr x0 x1) i j
          - max ⊥ (rowMax fun j' => score (qArr x0 x2) (projArr x0 x1) i j')) := by
  rw [val_main_v16_apply, val_main_v15_apply, val_main_v14_apply, val_main_v13_apply]
  have e : idx_main_v13 (idx_main_v14 (ix2 i j)) = ix1 i :=
    funext fun a => Fin.ext (by match a with | ⟨0, _⟩ => rfl)
  rw [e, v12_at, v9_at]
  rfl

/-- The row's sum of exponentials, from zero. -/
theorem v17_at (x0 : CX) (x1 x2 : CW) (i : Fin 8192) :
    val_main_v17 (F := Ideal) x0 x1 x2 (ix1 i)
      = 0 + ∑ j : Fin 8192, Ideal.exp (score (qArr x0 x2) (projArr x0 x1) i j
          - max ⊥ (rowMax fun j' => score (qArr x0 x2) (projArr x0 x1) i j')) := by
  rw [val_main_v17_apply, val_main_cst_2_apply]
  have h0 : FloatOps.ofBits (F := Ideal) .f32 0x00000000#32 = 0 := Ideal.ofBits_zero_f32
  rw [h0]
  refine congrArg (0 + ·) (Finset.sum_congr rfl fun k _ => ?_)
  have e : idx_main_v17 (ix1 i) k = ix2 i k :=
    funext fun a => Fin.ext (by match a with | ⟨0, _⟩ => rfl | ⟨1, _⟩ => rfl)
  rw [e, v16_at]

/-- The softmax weight. -/
theorem v20_at (x0 : CX) (x1 x2 : CW) (i j : Fin 8192) :
    val_main_v20 (F := Ideal) x0 x1 x2 (ix2 i j)
      = Ideal.div (Ideal.exp (score (qArr x0 x2) (projArr x0 x1) i j
          - max ⊥ (rowMax fun j' => score (qArr x0 x2) (projArr x0 x1) i j')))
        (0 + ∑ j'' : Fin 8192, Ideal.exp (score (qArr x0 x2) (projArr x0 x1) i j''
          - max ⊥ (rowMax fun j' => score (qArr x0 x2) (projArr x0 x1) i j'))) := by
  rw [val_main_v20_apply, val_main_v19_apply, val_main_v18_apply]
  have e : idx_main_v18 (idx_main_v19 (ix2 i j)) = ix1 i :=
    funext fun a => Fin.ext (by match a with | ⟨0, _⟩ => rfl)
  rw [e, v17_at, v16_at]
  rfl

/-- The keep factor. -/
theorem v23_at (x5 : CU) (i j : Fin 8192) :
    val_main_v23 (F := Ideal) x5 (ix2 i j) = keepE (x5 (ix2 i j)) := by
  rw [val_main_v23_apply, val_main_v22_apply, val_main_v21_apply, val_main_cst_3_apply,
    val_main_call0_v0_apply, val_main_cst_4_apply, val_main_call0_v1_apply, val_main_cst_5_apply]
  rfl

/-- The weighted sum of the value rows is the one-pass form over the score row. -/
theorem v25_at (x0 : CX) (x1 x2 x3 : CW) (x5 : CU) (i : Fin 8192) (d : Fin 1024) :
    val_main_v25 (F := Ideal) x0 x1 x2 x3 x5 (ix2 i d)
      = softRow (L := 8192) (fun j => score (qArr x0 x2) (projArr x0 x1) i j)
          (fun j => keepE (x5 (ix2 i j))) (fun j => projArr x0 x3 (ix2 j d)) := by
  rw [val_main_v25_apply]
  unfold softRow
  refine Finset.sum_congr rfl fun k _ => ?_
  have e1 : lidx_main_v25 (ix2 i d) k = ix2 i k :=
    funext fun a => Fin.ext (by match a with | ⟨0, _⟩ => rfl | ⟨1, _⟩ => rfl)
  have e2 : ridx_main_v25 (ix2 i d) k = ix2 k d :=
    funext fun a => Fin.ext (by match a with | ⟨0, _⟩ => rfl | ⟨1, _⟩ => rfl)
  rw [e1, e2, val_main_v24_apply, v20_at, v23_at, v7_at]
  rfl

/-- The reference program's result is the specification in the one-pass arrangement. -/
theorem ref_is_spec (x0 : (⟨Cert.ReferenceIdeal.S8192x1024, .f32⟩ : BufTy).Contents (Elt Ideal))
    (x1 x2 x3 x4 : (⟨Cert.ReferenceIdeal.S1024x1024, .f32⟩ : BufTy).Contents (Elt Ideal))
    (x5 : (⟨Cert.ReferenceIdeal.S8192x8192, .f32⟩ : BufTy).Contents (Elt Ideal)) :
    Cert.ReferenceIdeal.Read.val_main_v27 (F := Ideal) x0 x1 x2 x3 x4 x5 = Cert.AttnSpec.refSpec x0 x1 x2 x3 x4 x5 := by
  funext idx
  obtain ⟨p, q, rfl⟩ : ∃ (p : Fin 8192) (q : Fin 1024), idx = ix2 p q := ⟨idx 0, idx 1, eq_ix2 idx⟩
  rw [val_main_v27_apply]
  show _ = attnRefAt (qArr x0 x2) (projArr x0 x1) (projArr x0 x3) x5 x4 p q
  unfold attnRefAt
  refine Finset.sum_congr rfl fun d _ => ?_
  have e1 : lidx_main_v27 (ix2 p q) d = ix2 p d :=
    funext fun a => Fin.ext (by match a with | ⟨0, _⟩ => rfl | ⟨1, _⟩ => rfl)
  have e2 : idx_main_v26 (ridx_main_v27 (ix2 p q) d) = ix2 q d :=
    funext fun a => Fin.ext (by match a with | ⟨0, _⟩ => rfl | ⟨1, _⟩ => rfl)
  rw [val_main_v26_apply, e1, e2, v25_at]

end Cert.ReferenceIdeal.RefValue

end
-- ==== Proof.Finite.lean ====
/-
  Finiteness of the inputs, read back from the precondition, and three constants as real numbers.

  The precondition says, for each of the six arrays, that every entry x has |x| below plus infinity, and takes the
  conjunction of the six statements. On the extended reals |x| is max x (-x), which is plus infinity at both infinities,
  so an entry that passes is the coercion of a real number.

  A binary32 pattern whose exponent field is not all ones denotes a real number.
-/
import proofs.«155470_j14800457302355_2_alg».proof.Defs
import proofs.«155470_j14800457302355_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

/-- The scalar shape has one index. -/
instance : Subsingleton Cert.Pre_finite_inputs.S_.Idx := ⟨fun a b => funext fun d => d.elim0⟩

/-- An extended real x with max x (-x) below the value of the pattern of plus infinity is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If the conjunction over all entries of "|x| is below plus infinity" holds, every entry is a real number. -/
theorem real_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
        (cmpf .olt (Host.absf a)
          (broadcastInDim S ![] hb (constant (F := Ideal) Cert.Pre_finite_inputs.S_ .f32 0x7F800000#32)))
        init hr hu ValueIdx.ix0 = 1#1) :
    ∀ i, ∃ r : ℝ, a i = (r : EReal) := by
  intro i
  exact real_of_abs_lt_inf (a i) (Host.reduce_andi_all _ init hr hu ValueIdx.ix0 e i)

/-- Under the precondition every entry of every input is a real number. -/
theorem real_of_fn [Cert.Pre_finite_inputs.Facts]
    (a0 : FVec Ideal Cert.Pre_finite_inputs.S8192x1024 .f32)
    (a1 a2 a3 a4 : FVec Ideal Cert.Pre_finite_inputs.S1024x1024 .f32)
    (a5 : FVec Ideal Cert.Pre_finite_inputs.S8192x8192 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) := by
  have h0 := congrFun h ValueIdx.ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2,
    real_of_all a3 _ _ _ _ h3, real_of_all a4 _ _ _ _ h4, real_of_all a5 _ _ _ _ h5⟩

/-- A pattern whose exponent field is not all ones denotes a real number. -/
theorem ieee_real (e m : ℕ) {w : ℕ} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- The binary32 pattern 3D75C28F denotes a real number. -/
theorem lit_scale : ∃ r : ℝ, Ideal.ofBits .f32 0x3D75C28F#32 = (r : EReal) :=
  ieee_real 8 23 (0x3D75C28F#32 : BitVec 32) (by decide)

/-- The binary32 pattern 40000000 denotes a real number. -/
theorem lit_two : ∃ r : ℝ, Ideal.ofBits .f32 0x40000000#32 = (r : EReal) :=
  ieee_real 8 23 (0x40000000#32 : BitVec 32) (by decide)

/-- The binary32 pattern 3F000000 denotes a real number. -/
theorem lit_half : ∃ r : ℝ, Ideal.ofBits .f32 0x3F000000#32 = (r : EReal) :=
  ieee_real 8 23 (0x3F000000#32 : BitVec 32) (by decide)

end Cert.Finite

end
-- ==== Proof.SpecReal.lean ====
/-
  With real arguments the projected arrays are real, so the block arrangement of the whole computation is its one-pass arrangement.
-/
import proofs.«155470_j14800457302355_2_alg».proof.Proof.Spec
import proofs.«155470_j14800457302355_2_alg».proof.Proof.Finite

noncomputable section

namespace Cert.AttnSpec

open Idealize.ShloMosaic Idealize.ShloMosaic.ValueIdx Cert.OnlineSoftmax

theorem projArr_real (x : SX.Idx → EReal) (W : SW.Idx → EReal) (hx : ∀ i, ∃ r : ℝ, x i = (r : EReal)) (hW : ∀ i, ∃ r : ℝ, W i = (r : EReal)) :
    ∀ i, ∃ r : ℝ, projArr x W i = (r : EReal) := fun i =>
  sum_mul_real _ _ (fun e => hx _) (fun e => hW _)

theorem qArr_real (x : SX.Idx → EReal) (W : SW.Idx → EReal) (hx : ∀ i, ∃ r : ℝ, x i = (r : EReal)) (hW : ∀ i, ∃ r : ℝ, W i = (r : EReal)) :
    ∀ i, ∃ r : ℝ, qArr x W i = (r : EReal) := fun i => by
  obtain ⟨a, ha⟩ := projArr_real x W hx hW i
  obtain ⟨b, hb⟩ := Cert.Finite.lit_scale
  refine ⟨a * b, ?_⟩
  show proj x W (i 0) (i 1) * cScale = _
  rw [show proj x W (i 0) (i 1) = (a : EReal) from ha, show cScale = (b : EReal) from hb, EReal.coe_mul]

/-- The two arrangements of the whole computation agree on real arguments. -/
theorem spec_law (x : SX.Idx → EReal) (Wk Wq Wv Wo : SW.Idx → EReal) (U : SU.Idx → EReal)
    (hx : ∀ i, ∃ r : ℝ, x i = (r : EReal)) (hk : ∀ i, ∃ r : ℝ, Wk i = (r : EReal)) (hq : ∀ i, ∃ r : ℝ, Wq i = (r : EReal))
    (hv : ∀ i, ∃ r : ℝ, Wv i = (r : EReal)) :
    refSpec x Wk Wq Wv Wo U = onlineSpec x Wk Wq Wv Wo U := by
  funext idx
  unfold refSpec onlineSpec
  exact (attn_law _ _ _ U Wo (qArr_real x Wq hx hq) (projArr_real x Wk hx hk) (projArr_real x Wv hx hv) Cert.Finite.lit_two (idx 0) (idx 1)).symm

end Cert.AttnSpec

end
-- ==== Proof.lean ====
/-
  The certificate of the fused attention kernel against its one-pass reference.

  Both programs compute, for 8192 frames of 1024 features: scaled queries, keys and values by three linear layers, a softmax over all
  keys of each query's scores, a keep factor read off a noise array on every softmax weight, the weighted sum of the values, and an
  output layer. The reference does this in one pass over the keys. The kernel program has two launches: one computes the three
  projections block by block; the other walks an 8 x 8 grid of query and key blocks, carrying a running maximum, denominator and
  numerator of the softmax along the key axis, and stores the normalised result through the output weights at the last key block.

  The frames: each launch's body is run symbolically at every grid point, the second with the carried scratch contents named
  point by point. The value: read at a row, the carried triple is the scalar online softmax; with real entries its result is the
  one-pass softmax average, because rescaling by the exponential of a maximum's change turns the old shifted terms into the new
  ones, and a softmax average does not depend on the shift. The reference's result is read off its run one operation at a time.
  Finiteness of the inputs is used for that law (distributivity and cancelling fail at infinite entries).
-/
import proofs.«155470_j14800457302355_2_alg».proof.Defs
import proofs.«155470_j14800457302355_2_alg».proof.Proof.Gen.Kernel
import proofs.«155470_j14800457302355_2_alg».proof.Proof.Gen.KernelIdeal
import proofs.«155470_j14800457302355_2_alg».proof.Proof.Gen.ReferenceIdeal
import proofs.«155470_j14800457302355_2_alg».proof.Proof.Gen.Pre_finite_inputs
import proofs.«155470_j14800457302355_2_alg».proof.Proof.Gen.ReferenceIdeal.Run
import proofs.«155470_j14800457302355_2_alg».proof.Proof.Gen.ReferenceIdeal.Read
import proofs.«155470_j14800457302355_2_alg».proof.Proof.FrameRunB
import proofs.«155470_j14800457302355_2_alg».proof.Proof.KernelValue
import proofs.«155470_j14800457302355_2_alg».proof.Proof.RefValue
import proofs.«155470_j14800457302355_2_alg».proof.Proof.SpecReal
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The idealized kernel program ends at the block arrangement of its arguments, the idealized reference at the one-pass
    arrangement of arguments that agree; the arguments being finite, the two are one function. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hk, hq, hv, -, -⟩ := Cert.Finite.real_of_fn _ _ _ _ _ _ (hpre c)
  rw [Cert.ReferenceIdeal.Read.val_main_v27_eq, Cert.ReferenceIdeal.RefValue.ref_is_spec,
    (hagree c).1, (hagree c).2.1, (hagree c).2.2.1, (hagree c).2.2.2.1, (hagree c).2.2.2.2.1, (hagree c).2.2.2.2.2]
  exact Cert.AttnSpec.spec_law _ _ _ _ _ _ hx hk hq hv

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
